-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 150
  | .vmem => 50
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x1, .f32⟩
  | 14 => ⟨S1700000x128, .f32⟩
  | 15 => ⟨S1700000x128, .f32⟩
  | 16 => ⟨S_, .f32⟩
  | 17 => ⟨S100000x128, .f32⟩
  | 18 => ⟨S1700000x1, .i32⟩
  | 19 => ⟨S100000x128, .f32⟩
  | 20 => ⟨S1x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_c_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_c_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x128, .f32⟩
  | 29 => ⟨S1700000x1, .f32⟩
  | 30 => ⟨S1700000x128, .f32⟩
  | 31 => ⟨S1700000x128, .f32⟩
  | 32 => ⟨S_, .f32⟩
  | 33 => ⟨S100000x128, .f32⟩
  | 34 => ⟨S1700000x1, .i32⟩
  | 35 => ⟨S100000x128, .f32⟩
  | 36 => ⟨S1x128, .f32⟩
  | 37 => ⟨S100000x128, .f32⟩
  | 38 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_c_15 : Ref sig .tc := ⟨.hbm, 125, rfl⟩
abbrev main_v87 : Ref sig .tc := ⟨.hbm, 126, rfl⟩
abbrev main_v88 : Ref sig .tc := ⟨.hbm, 127, rfl⟩
abbrev main_c_16 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_v104 : Ref sig .tc := ⟨.hbm, 147, rfl⟩
abbrev main_c_18 : Ref sig .tc := ⟨.hbm, 148, rfl⟩
abbrev main_v105 : Ref sig .tc := ⟨.hbm, 149, rfl⟩
abbrev main_v106 : Ref sig .tc := ⟨.hbm, 150, rfl⟩
abbrev main_c_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_20 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel program's run with its result named. The program is ten kernel regions among stretches of host
  operations; run from any memory, every weakly fair execution terminates without a fault, the argument arrays end as
  launched, and the result buffer ends at the contents the last segment boundary gives it: the valuation obtained by
  folding every stretch's operations and every region's written-back arrays, in order, over the launch memory.
-/
import proofs.«146877_j30399778521459_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments launched one after the other; at the end every unscoped buffer is read at the last boundary's
    contents, the result buffer among them, and each argument's contents walk back to the launch memory. -/
theorem run_result : θ_run defs (onTc (τ := τ) (main (F := F))) ⟨m, fun _ => 0, ρ⟩ (fun r => ∀ c : Dev nD,
      r.2.mem ((c.tc : Thread nD τ).loc main_v111) = W18 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v111 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.RunValue

end
-- ==== Proof.Keep.lean ====
/-
  What no later segment touches. After the opening host operations the program has computed the edges' endpoints with
  the self loops appended and the edge normalisation; from then on neither those three arrays nor any of the thirteen
  argument arrays is written again: a region writes only its own output array (its input arrays are read through
  windows and left as found), and the host operations between regions write fresh buffers. So at every later segment
  boundary each of these sixteen arrays holds what it held when the first region was entered.
-/
import proofs.«146877_j30399778521459_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The arrays that stay: the thirteen arguments, the two endpoint arrays and the normalisation. -/
def live : List (Ref sig .tc) :=
  [main_arg0, main_arg1, main_arg2, main_arg3, main_arg4, main_arg5, main_arg6, main_arg7, main_arg8, main_arg9, main_arg10, main_arg11, main_arg12, main_v5, main_v6, main_v31]

theorem keep4 (c : Dev nD) : ∀ b ∈ live, W4 m ρ c (Proc.devRef .tc b) = W3 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
theorem at4 (c : Dev nD) : ∀ b ∈ live, W4 m ρ c (Proc.devRef .tc b) = W3 m ρ c (Proc.devRef .tc b) := keep4 m ρ c

theorem keep5 (c : Dev nD) : ∀ b ∈ live, W5 m ρ c (Proc.devRef .tc b) = W4 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals exact StableHlo.after_of_forall_not_mem (b := Proc.devRef .tc _) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem at5 (c : Dev nD) : ∀ b ∈ live, W5 m ρ c (Proc.devRef .tc b) = W3 m ρ c (Proc.devRef .tc b) :=
  fun b hb => (keep5 m ρ c b hb).trans (at4 m ρ c b hb)

theorem keep6 (c : Dev nD) : ∀ b ∈ live, W6 m ρ c (Proc.devRef .tc b) = W5 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))
theorem at6 (c : Dev nD) : ∀ b ∈ live, W6 m ρ c (Proc.devRef .tc b) = W3 m ρ c (Proc.devRef .tc b) :=
  fun b hb => (keep6 m ρ c b hb).trans (at5 m ρ c b hb)

theorem keep7 (c : Dev nD) : ∀ b ∈ live, W7 m ρ c (Proc.devRef .tc b) = W6 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))
theorem at7 (c : Dev nD) : ∀ b ∈ live, W7 m ρ c (Proc.devRef .tc b) = W3 m ρ c (Proc.devRef .tc b) :=
  fun b hb => (keep7 m ρ c b hb).trans (at6 m ρ c b hb)

theorem keep8 (c : Dev nD) : ∀ b ∈ live, W8 m ρ c (Proc.devRef .tc b) = W7 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals exact StableHlo.after_of_forall_not_mem (b := Proc.devRef .tc _) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem at8 (c : Dev nD) : ∀ b ∈ live, W8 m ρ c (Proc.devRef .tc b) = W3 m ρ c (Proc.devRef .tc b) :=
  fun b hb => (keep8 m ρ c b hb).trans (at7 m ρ c b hb)

theorem keep9 (c : Dev nD) : ∀ b ∈ live, W9 m ρ c (Proc.devRef .tc b) = W8 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))
theorem at9 (c : Dev nD) : ∀ b ∈ live, W9 m ρ c (Proc.devRef .tc b) = W3 m ρ c (Proc.devRef .tc b) :=
  fun b hb => (keep9 m ρ c b hb).trans (at8 m ρ c b hb)

theorem keep10 (c : Dev nD) : ∀ b ∈ live, W10 m ρ c (Proc.devRef .tc b) = W9 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))
theorem at10 (c : Dev nD) : ∀ b ∈ live, W10 m ρ c (Proc.devRef .tc b) = W3 m ρ c (Proc.devRef .tc b) :=
  fun b hb => (keep10 m ρ c b hb).trans (at9 m ρ c b hb)

theorem keep11 (c : Dev nD) : ∀ b ∈ live, W11 m ρ c (Proc.devRef .tc b) = W10 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals exact StableHlo.after_of_forall_not_mem (b := Proc.devRef .tc _) _ _ (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem at11 (c : Dev nD) : ∀ b ∈ live, W11 m ρ c (Proc.devRef .tc b) = W3 m ρ c (Proc.devRef .tc b) :=
  fun b hb => (keep11 m ρ c b hb).trans (at10 m ρ c b hb)

theorem keep12 (c : Dev nD) : ∀ b ∈ live, W12 m ρ c (Proc.devRef .tc b) = W11 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W12_of_ne m ρ c _ (by decide)
    | exact (W12_arr m ρ c 0).trans (((dat5 (V11 m ρ) c).arrAt_in 0 rfl _).trans (A_eq5 (V11 m ρ) c 0))
    | exact (W12_arr m ρ c 1).trans (((dat5 (V11 m ρ) c).arrAt_in 1 rfl _).trans (A_eq5 (V11 m ρ) c 1))
theorem at12 (c : Dev nD) : ∀ b ∈ live, W12 m ρ c (Proc.devRef .tc b) = W3 m ρ c (Proc.devRef .tc b) :=
  fun b hb => (keep12 m ρ c b hb).trans (at11 m ρ c b hb)

theorem keep13 (c : Dev nD) : ∀ b ∈ live, W13 m ρ c (Proc.devRef .tc b) = W12 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W13_of_ne m ρ c _ (by decide)
    | exact (W13_arr m ρ c 0).trans (((dat6 (V12 m ρ) c).arrAt_in 0 rfl _).trans (A_eq6 (V12 m ρ) c 0))
    | exact (W13_arr m ρ c 1).trans (((dat6 (V12 m ρ) c).arrAt_in 1 rfl _).trans (A_eq6 (V12 m ρ) c 1))
theorem at13 (c : Dev nD) : ∀ b ∈ live, W13 m ρ c (Proc.devRef .tc b) = W3 m ρ c (Proc.devRef .tc b) :=
  fun b hb => (keep13 m ρ c b hb).trans (at12 m ρ c b hb)

theorem keep14 (c : Dev nD) : ∀ b ∈ live, W14 m ρ c (Proc.devRef .tc b) = W13 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals exact StableHlo.after_of_forall_not_mem (b := Proc.devRef .tc _) _ _ (List.forall_iff_forall_mem.mp (by
      simp only [hostOps7, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem at14 (c : Dev nD) : ∀ b ∈ live, W14 m ρ c (Proc.devRef .tc b) = W3 m ρ c (Proc.devRef .tc b) :=
  fun b hb => (keep14 m ρ c b hb).trans (at13 m ρ c b hb)

theorem keep15 (c : Dev nD) : ∀ b ∈ live, W15 m ρ c (Proc.devRef .tc b) = W14 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W15_of_ne m ρ c _ (by decide)
    | exact (W15_arr m ρ c 0).trans (((dat7 (V14 m ρ) c).arrAt_in 0 rfl _).trans (A_eq7 (V14 m ρ) c 0))
    | exact (W15_arr m ρ c 1).trans (((dat7 (V14 m ρ) c).arrAt_in 1 rfl _).trans (A_eq7 (V14 m ρ) c 1))
theorem at15 (c : Dev nD) : ∀ b ∈ live, W15 m ρ c (Proc.devRef .tc b) = W3 m ρ c (Proc.devRef .tc b) :=
  fun b hb => (keep15 m ρ c b hb).trans (at14 m ρ c b hb)

theorem keep16 (c : Dev nD) : ∀ b ∈ live, W16 m ρ c (Proc.devRef .tc b) = W15 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W16_of_ne m ρ c _ (by decide)
    | exact (W16_arr m ρ c 0).trans (((dat8 (V15 m ρ) c).arrAt_in 0 rfl _).trans (A_eq8 (V15 m ρ) c 0))
    | exact (W16_arr m ρ c 1).trans (((dat8 (V15 m ρ) c).arrAt_in 1 rfl _).trans (A_eq8 (V15 m ρ) c 1))
theorem at16 (c : Dev nD) : ∀ b ∈ live, W16 m ρ c (Proc.devRef .tc b) = W3 m ρ c (Proc.devRef .tc b) :=
  fun b hb => (keep16 m ρ c b hb).trans (at15 m ρ c b hb)

theorem keep17 (c : Dev nD) : ∀ b ∈ live, W17 m ρ c (Proc.devRef .tc b) = W16 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals exact StableHlo.after_of_forall_not_mem (b := Proc.devRef .tc _) _ _ (List.forall_iff_forall_mem.mp (by
      simp only [hostOps9, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem at17 (c : Dev nD) : ∀ b ∈ live, W17 m ρ c (Proc.devRef .tc b) = W3 m ρ c (Proc.devRef .tc b) :=
  fun b hb => (keep17 m ρ c b hb).trans (at16 m ρ c b hb)

theorem keep18 (c : Dev nD) : ∀ b ∈ live, W18 m ρ c (Proc.devRef .tc b) = W17 m ρ c (Proc.devRef .tc b) := by
  intro b hb
  simp only [live, List.mem_cons, List.not_mem_nil, or_false] at hb
  rcases hb with rfl | rfl | rfl | rfl | rfl | rfl | rfl | rfl | rfl | rfl | rfl | rfl | rfl | rfl | rfl | rfl
  all_goals first
    | exact W18_of_ne m ρ c _ (by decide)
    | exact (W18_arr m ρ c 0).trans (((dat9 (V17 m ρ) c).arrAt_in 0 rfl _).trans (A_eq9 (V17 m ρ) c 0))
    | exact (W18_arr m ρ c 1).trans (((dat9 (V17 m ρ) c).arrAt_in 1 rfl _).trans (A_eq9 (V17 m ρ) c 1))
theorem at18 (c : Dev nD) : ∀ b ∈ live, W18 m ρ c (Proc.devRef .tc b) = W3 m ρ c (Proc.devRef .tc b) :=
  fun b hb => (keep18 m ρ c b hb).trans (at17 m ρ c b hb)

end Cert.KernelIdeal.Keep

end
-- ==== Proof.Spec.lean ====
/-
  The graph network both programs compute, as a composition of named stages, each stage the reference's own host
  operation. With `row`, `col` the edges' endpoints with one self loop per node appended and `nrm` the symmetric
  normalisation `d(row)^(-1/2) · w · d(col)^(-1/2)` (`d` the weighted in-degree, `0` in place of `d^(-1/2)` where `d ≤ 0`),
  one layer is
      x  ↦  relu (propagate (x · W) + b),        propagate h = ∑_{edges e with col e = ·} nrm e · h (row e),
  and the network is four such layers followed by one without the `relu`.
-/
import proofs.«146877_j30399778521459_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- The edges' source endpoints followed by every node once (the self loops). -/
def rowIdx (ei : (⟨S2x1600000, .i32⟩ : BufTy).Contents (Elt F)) : (⟨S1700000, .i32⟩ : BufTy).Contents (Elt F) :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)

/-- The edges' target endpoints followed by every node once. -/
def colIdx (ei : (⟨S2x1600000, .i32⟩ : BufTy).Contents (Elt F)) : (⟨S1700000, .i32⟩ : BufTy).Contents (Elt F) :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)

/-- The edge weights followed by one weight `1` per node (the self loops). -/
def weights (ew : (⟨S1600000, .f32⟩ : BufTy).Contents (Elt F)) : (⟨S1700000, .f32⟩ : BufTy).Contents (Elt F) :=
  (concatenate S1700000 0 [⟨S1600000, ew⟩, ⟨S100000, (broadcastInDim S100000 ![] bcast_S_S100000 (constant S_ .f32 0x3F800000#32))⟩] concatenates_S1600000_S100000_S1700000_d0)

/-- The weighted in-degree of every node: the weights added up by target endpoint. -/
def degree (col : (⟨S1700000, .i32⟩ : BufTy).Contents (Elt F)) (w : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) w

/-- Where the degree is positive. -/
def posDeg (col : (⟨S1700000, .i32⟩ : BufTy).Contents (Elt F)) (w : (⟨S1700000, .f32⟩ : BufTy).Contents (Elt F)) : (⟨S100000, .i1⟩ : BufTy).Contents (Elt F) :=
  cmpf .ogt (degree (F := F) col w) (broadcastInDim S100000 ![] bcast_S_S100000 (constant S_ .f32 0x00000000#32))

/-- The degree's inverse square root. -/
def rsqrtDeg (col : (⟨S1700000, .i32⟩ : BufTy).Contents (Elt F)) (w : (⟨S1700000, .f32⟩ : BufTy).Contents (Elt F)) : (⟨S100000, .f32⟩ : BufTy).Contents (Elt F) :=
  Host.rsqrt (degree (F := F) col w)

/-- The scalar zero. -/
def zeroScalar : (⟨S_, .f32⟩ : BufTy).Contents (Elt F) :=
  constant S_ .f32 0x00000000#32

/-- `a` where `p` holds, the scalar `z` elsewhere. -/
def whereSel (p : (⟨S100000, .i1⟩ : BufTy).Contents (Elt F)) (a : (⟨S100000, .f32⟩ : BufTy).Contents (Elt F)) (z : (⟨S_, .f32⟩ : BufTy).Contents (Elt F)) : (⟨S100000, .f32⟩ : BufTy).Contents (Elt F) :=
  select p a (broadcastInDim S100000 ![] bcast_S_S100000 (id z))

/-- `degree^(-1/2)` where the degree is positive, `0` elsewhere. -/
def invSqrtDeg (col : (⟨S1700000, .i32⟩ : BufTy).Contents (Elt F)) (w : (⟨S1700000, .f32⟩ : BufTy).Contents (Elt F)) : (⟨S100000, .f32⟩ : BufTy).Contents (Elt F) :=
  whereSel (posDeg col w) (rsqrtDeg col w) zeroScalar

/-- Every edge's weight scaled by a per-node factor at its source and at its target. -/
def normFrom (dinv : (⟨S100000, .f32⟩ : BufTy).Contents (Elt F)) (row col : (⟨S1700000, .i32⟩ : BufTy).Contents (Elt F)) (w : (⟨S1700000, .f32⟩ : BufTy).Contents (Elt F)) :
    (⟨S1700000, .f32⟩ : BufTy).Contents (Elt F) :=
  mulf (mulf (Host.gather gather_S100000_S1700000x1_S1700000_n_0_n_n_0_1_1 dinv (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) w) (Host.gather gather_S100000_S1700000x1_S1700000_n_0_n_n_0_1_1 dinv (broadcastInDim S1700000x1 ![0] bcast_S1700000_S1700000x1_0 (select (cmpi .slt col (broadcastInDim S1700000 ![] bcast_S_S1700000 (constantI S_ 32 0#32))) (addi col (broadcastInDim S1700000 ![] bcast_S_S1700000 (constantI S_ 32 100000#32))) col)))

/-- The normalisation of every edge (self loops of weight one included): `d(row)^(-1/2) · w · d(col)^(-1/2)`. -/
def edgeNorm (ei : (⟨S2x1600000, .i32⟩ : BufTy).Contents (Elt F)) (ew : (⟨S1600000, .f32⟩ : BufTy).Contents (Elt F)) : (⟨S1700000, .f32⟩ : BufTy).Contents (Elt F) :=
  normFrom (invSqrtDeg (colIdx ei) (weights ew)) (rowIdx ei) (colIdx ei) (weights ew)

/-- The dense stage: `x · W`, rows by columns. -/
def dense (x : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none x W

/-- The sparse stage: row `row e` of `h`, scaled by `nrm e`, added into row `col e`, over all edges `e`. -/
def propagate (h : (⟨S100000x128, .f32⟩ : BufTy).Contents (Elt F)) (row col : (⟨S1700000, .i32⟩ : BufTy).Contents (Elt F)) (nrm : (⟨S1700000, .f32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x128 ![0, 1] bcast_S1700000x1_S1700000x128_0_1 (broadcastInDim S1700000x1 ![0] bcast_S1700000_S1700000x1_0 nrm)))

/-- The bias added to every row. -/
def addBias (a : (⟨S100000x128, .f32⟩ : BufTy).Contents (Elt F)) (b : (⟨S128, .f32⟩ : BufTy).Contents (Elt F)) : (⟨S100000x128, .f32⟩ : BufTy).Contents (Elt F) :=
  addf a (broadcastInDim S100000x128 ![0, 1] bcast_S1x128_S100000x128_0_1 (broadcastInDim S1x128 ![1] bcast_S128_S1x128_1 b))

/-- `max(·, 0)`, entry by entry. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- One hidden layer. -/
def layer (x : (⟨S100000x128, .f32⟩ : BufTy).Contents (Elt F)) (W : (⟨S128x128, .f32⟩ : BufTy).Contents (Elt F)) (b : (⟨S128, .f32⟩ : BufTy).Contents (Elt F))
    (row col : (⟨S1700000, .i32⟩ : BufTy).Contents (Elt F)) (nrm : (⟨S1700000, .f32⟩ : BufTy).Contents (Elt F)) : (⟨S100000x128, .f32⟩ : BufTy).Contents (Elt F) :=
  relu (addBias (propagate (dense x W) row col nrm) b)

/-- The output layer: no `relu`. -/
def outLayer (x : (⟨S100000x128, .f32⟩ : BufTy).Contents (Elt F)) (W : (⟨S128x128, .f32⟩ : BufTy).Contents (Elt F)) (b : (⟨S128, .f32⟩ : BufTy).Contents (Elt F))
    (row col : (⟨S1700000, .i32⟩ : BufTy).Contents (Elt F)) (nrm : (⟨S1700000, .f32⟩ : BufTy).Contents (Elt F)) : (⟨S100000x128, .f32⟩ : BufTy).Contents (Elt F) :=
  addBias (propagate (dense x W) row col nrm) b

/-- The five layers over fixed edges. -/
def layers (x : (⟨S100000x128, .f32⟩ : BufTy).Contents (Elt F)) (row col : (⟨S1700000, .i32⟩ : BufTy).Contents (Elt F)) (nrm : (⟨S1700000, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) (W4 : (⟨S128x128, .f32⟩ : BufTy).Contents (Elt F)) (b4 : (⟨S128, .f32⟩ : BufTy).Contents (Elt F))
    (W5 : (⟨S128x128, .f32⟩ : BufTy).Contents (Elt F)) (b5 : (⟨S128, .f32⟩ : BufTy).Contents (Elt F)) : (⟨S100000x128, .f32⟩ : BufTy).Contents (Elt F) :=
  outLayer (layer (layer (layer (layer x W1 b1 row col nrm) W2 b2 row col nrm) W3 b3 row col nrm) W4 b4 row col nrm) W5 b5 row col nrm

/-- The network, of the node features, the edge list, the edge weights and the five layers' parameters. -/
def net (x : (⟨S100000x128, .f32⟩ : BufTy).Contents (Elt F)) (ei : (⟨S2x1600000, .i32⟩ : BufTy).Contents (Elt F)) (ew : (⟨S1600000, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) (W4 : (⟨S128x128, .f32⟩ : BufTy).Contents (Elt F)) (b4 : (⟨S128, .f32⟩ : BufTy).Contents (Elt F))
    (W5 : (⟨S128x128, .f32⟩ : BufTy).Contents (Elt F)) (b5 : (⟨S128, .f32⟩ : BufTy).Contents (Elt F)) : (⟨S100000x128, .f32⟩ : BufTy).Contents (Elt F) :=
  layers x (rowIdx ei) (colIdx ei) (edgeNorm ei ew) W1 b1 W2 b2 W3 b3 W4 b4 W5 b5

end Cert.Gcn

end
-- ==== Proof.BiasSpec.lean ====
/-
  The bias stage in the form the kernel computes it. The kernel receives the bias as a `1 × 128` array `b2` (the bias
  `b` with a unit axis put in front) and adds its one row to every row of its operand: entry `(r, q)` becomes
  `A (r, q) + b2 (0, q)`, then `max(·, 0)` in the hidden layers. The reference broadcasts `b` to `1 × 128` and then to
  `100000 × 128` before adding. Entry by entry the two are the same: both add `b q` to `A (r, q)`.
-/
import proofs.«146877_j30399778521459_1_alg».proof.Proof.Spec
import Idealize.ShloMosaic.Lib.ValueIdx
import Idealize.ShloMosaic.Lib.ValueLayout
import Idealize.ShloMosaic.Lib.Pipeline.Value

noncomputable section

namespace Cert.Gcn

open Cert.ReferenceIdeal Cert.ReferenceIdeal.Gen Idealize.ShloMosaic Idealize.ShloMosaic.TcCoe
open Idealize.ShloMosaic.ValueIdx

/-- The one row `b2 (0, ·)` added to every row of `A`. -/
def rowBias (A : (⟨2, ![100000, 128]⟩ : Shape).Idx → EReal) (b2 : (⟨2, ![1, 128]⟩ : Shape).Idx → EReal) :
    (⟨2, ![100000, 128]⟩ : Shape).Idx → EReal :=
  fun i => A i + b2 (ix2 (0 : Fin 1) (⟨(i 1).val, (i 1).isLt⟩ : Fin 128))

/-- The same followed by `max(·, 0)`. -/
def rowBiasRelu (A : (⟨2, ![100000, 128]⟩ : Shape).Idx → EReal) (b2 : (⟨2, ![1, 128]⟩ : Shape).Idx → EReal) :
    (⟨2, ![100000, 128]⟩ : Shape).Idx → EReal :=
  fun i => max (rowBias A b2 i) (FloatOps.ofBits (F := Ideal) .f32 0x00000000#32)

/-- The reference's doubly broadcast bias at `(r, q)` is `b q`. -/
theorem bias_bcast_apply (b : (⟨S128, .f32⟩ : BufTy).Contents (Elt Ideal)) (r : Fin 100000) (q : Fin 128) :
    broadcastInDim S100000x128 ![0, 1] bcast_S1x128_S100000x128_0_1 (broadcastInDim S1x128 ![1] bcast_S128_S1x128_1 b) (ix2 r q)
      = b (ix1 q) := by
  refine (broadcastInDim_apply _ bcast_S1x128_S100000x128_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (128 : Nat) = 1 then 0 else q.val; rw [if_neg (by decide)]
  · refine broadcastInDim_apply _ bcast_S128_S1x128_1 b (ix2 (0 : Fin 1) q) (ix1 q) (fun a => ?_)
    match a with
    | ⟨0, _⟩ => show q.val = if (128 : Nat) = 1 then 0 else q.val; rw [if_neg (by decide)]

/-- Adding the bias as the reference does is adding the one row of the bias with a unit axis in front. -/
theorem addBias_eq (A : (⟨S100000x128, .f32⟩ : BufTy).Contents (Elt Ideal)) (b : (⟨S128, .f32⟩ : BufTy).Contents (Elt Ideal))
    (h : (⟨1, ![128]⟩ : Shape).ShapeCasts ⟨2, ![1, 128]⟩) :
    addBias (F := Ideal) A b = rowBias A (shapeCast ⟨2, ![1, 128]⟩ b h) := by
  funext i
  obtain ⟨r, q, rfl⟩ : ∃ (r : Fin 100000) (q : Fin 128), i = ix2 r q := ⟨i 0, i 1, eq_ix2 i⟩
  unfold addBias rowBias
  show A (ix2 r q) + broadcastInDim S100000x128 ![0, 1] bcast_S1x128_S100000x128_0_1 (broadcastInDim S1x128 ![1] bcast_S128_S1x128_1 b) (ix2 r q)
    = A (ix2 r q) + shapeCast ⟨2, ![1, 128]⟩ b h (ix2 (0 : Fin 1) q)
  rw [bias_bcast_apply, shapeCast_a_1a_apply]

/-- The hidden layers' bias and `max(·, 0)`, likewise. -/
theorem relu_addBias_eq (A : (⟨S100000x128, .f32⟩ : BufTy).Contents (Elt Ideal)) (b : (⟨S128, .f32⟩ : BufTy).Contents (Elt Ideal))
    (h : (⟨1, ![128]⟩ : Shape).ShapeCasts ⟨2, ![1, 128]⟩) :
    relu (F := Ideal) (addBias (F := Ideal) A b) = rowBiasRelu A (shapeCast ⟨2, ![1, 128]⟩ b h) := by
  rw [addBias_eq A b h]
  rfl

end Cert.Gcn

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.Region0.lean ====
/-
  Region 0: a row-blocked matrix product. The grid has 20 points; point `t` loads rows `5000 t … 5000 t + 4999` of the
  left operand and the whole right operand, and writes the product of the two back to the same rows of the output. Entry
  `(5000 t + a, b)` of the output is therefore `∑ k, x (5000 t + a, k) · W (k, b)`, which is entry `(5000 t + a, b)` of the whole
  product `x · W` (the narrowing of the operands to a shorter float format is the identity on extended reals). The 20 blocks
  tile the 100000 rows, so the output array ends as `x · W`.
-/
import proofs.«146877_j30399778521459_1_alg».proof.Proof.Gen.KernelIdeal.Frame
import Idealize.ShloMosaic.Lib.Pipeline.Value
import proofs.«146877_j30399778521459_1_alg».proof.Proof.LibMatmulIdx
import proofs.«146877_j30399778521459_1_alg».proof.Proof.LibDotGeneralIdx
import proofs.«146877_j30399778521459_1_alg».proof.Proof.Spec

set_option maxRecDepth 16384

open scoped BigOperators

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a row and a column of the block: the sum over the contracted coordinate. -/
theorem pay_apply (x0 : Vec Ideal S5000x128 .f32) (x1 : Vec Ideal S128x128 .f32) (a : Fin 5000) (b : Fin 128) :
    k0_pay1 x0 x1 (ix2 a b) = ∑ k : Fin 128, x0 (ix2 a k) * x1 (ix2 k b) := by
  unfold k0_pay1
  exact Cert.LibMatmulIdx.matmul_rc_apply _ none _ _ a b

/-- The printed index maps over the 20 points: the left operand's and the output's row-block index is the point, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Every row block is some point's. -/
theorem idx_onto : ∀ q : Fin 20, ∃ t : Fin cfg0.N, win0_2.index t = ![q.val, 0] :=
  (by decide +kernel : ∀ q : Fin 20, ∃ t : Fin grid0.N, win0_2.index t = ![q.val, 0])

/-- The left operand's block at point `t`: rows `5000 t + a` of the array. -/
theorem lhs_blk (c : Dev nD) (t : Fin cfg0.N) (a : Fin 5000) (k : Fin 128) (h : 5000 * t.val + a.val < 100000) :
    iblk0 V c 0 t (ix2 a k) = (V c main_arg0 : S100000x128.Idx → EReal) (ix2 ⟨5000 * t.val + a.val, h⟩ k) := by
  obtain ⟨e0, e1, -, -, -, -, -⟩ := idx_facts t
  show (V c main_arg0 : S100000x128.Idx → EReal) (((cfg0.win 0).blk t).view.emb (ix2 a k)) = _
  refine congrArg (V c main_arg0 : S100000x128.Idx → EReal) (funext fun ax => Fin.ext ?_)
  match ax with
  | ⟨0, _⟩ => show win0_0.index t (0 : Fin 2) * 5000 + 1 * a.val = 5000 * t.val + a.val; omega
  | ⟨1, _⟩ => show win0_0.index t (1 : Fin 2) * 128 + 1 * k.val = k.val; omega

/-- The right operand's block at any point: the whole array. -/
theorem rhs_blk (c : Dev nD) (t : Fin cfg0.N) (k : Fin 128) (b : Fin 128) :
    iblk0 V c 1 t (ix2 k b) = (V c main_arg3 : S128x128.Idx → EReal) (ix2 k b) := by
  obtain ⟨-, -, e2, e3, -, -, -⟩ := idx_facts t
  show (V c main_arg3 : S128x128.Idx → EReal) (((cfg0.win 1).blk t).view.emb (ix2 k b)) = _
  refine congrArg (V c main_arg3 : S128x128.Idx → EReal) (funext fun ax => Fin.ext ?_)
  match ax with
  | ⟨0, _⟩ => show win0_1.index t (0 : Fin 2) * 128 + 1 * k.val = k.val; omega
  | ⟨1, _⟩ => show win0_1.index t (1 : Fin 2) * 128 + 1 * b.val = b.val; omega

/-- What point `t` writes back is block `t` of the whole product of the arrays the region finds. -/
theorem flushed_eq (c : Dev nD) (t : Fin cfg0.N) :
    (dat0 V c).flushed 2 t = ((cfg0.win 2).blk t).view.read (Elt Ideal)
      (Cert.Gcn.dense (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg0.win 2).blk t).view.emb (ix2 a b) = (ix2 ⟨5000 * t.val + a.val, hrow⟩ b : S100000x128.Idx) := by
    funext ax; apply Fin.ext
    match ax with
    | ⟨0, _⟩ => show win0_2.index t (0 : Fin 2) * 5000 + 1 * a.val = 5000 * t.val + a.val; omega
    | ⟨1, _⟩ => show win0_2.index t (1 : Fin 2) * 128 + 1 * b.val = b.val; omega
  show k0_pay1 (iblk0 V c 0 t) (iblk0 V c 1 t) (ix2 a b)
    = Cert.Gcn.dense (F := Ideal) (V c main_arg0) (V c main_arg3) (((cfg0.win 2).blk t).view.emb (ix2 a b))
  rw [hemb]
  refine (pay_apply (iblk0 V c 0 t) (iblk0 V c 1 t) a b).trans ?_
  unfold Cert.Gcn.dense
  refine Eq.trans ?_ (Cert.LibDotGeneralIdx.dotGeneral_rc_apply _ none (V c main_arg0) (V c main_arg3) ⟨5000 * t.val + a.val, hrow⟩ b).symm
  refine Finset.sum_congr rfl fun k _ => ?_
  rw [lhs_blk V c t a k hrow, rhs_blk V c t k b]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in some point's block: row `r` is in block `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two arrays the region finds. -/
theorem final (c : Dev nD) :
    (dat0 V c).arrAt 2 cfg0.N = Cert.Gcn.dense (F := Ideal) (V c main_arg0) (V c main_arg3) :=
  (dat0 V c).arrAt_eq_of_cover 2 _ (fun t _ => flushed_eq V c t) covered

end Cert.KernelIdeal.Region0

end
-- ==== Proof.Region1.lean ====
/-
  Region 1: the bias and max(·, 0), row block by row block. The grid has 20 points; point `t` loads rows
  `5000 t … 5000 t + 4999` of the aggregated features and the one-row bias, adds the bias row to every loaded row,
  takes the maximum with zero, and writes the block back to the same rows of the output. The 20 blocks tile the 100000 rows, so
  the output array ends as that function of the two arrays the region finds.
-/
import proofs.«146877_j30399778521459_1_alg».proof.Proof.Gen.KernelIdeal.Frame
import Idealize.ShloMosaic.Lib.Pipeline.Value
import Idealize.ShloMosaic.Lib.ValueLayout
import proofs.«146877_j30399778521459_1_alg».proof.Proof.BiasSpec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a row and a column of the block. -/
theorem pay_apply (x0 : Vec Ideal S5000x128 .f32) (x2 : Vec Ideal S1x128 .f32) (a : Fin 5000) (b : Fin 128) :
    k1_pay1 x0 x2 (ix2 a b) = max (x0 (ix2 a b) + x2 (ix2 (0 : Fin 1) b)) (FloatOps.ofBits (F := Ideal) .f32 0x00000000#32) := by
  unfold k1_pay1
  rw [shapeCast_self, shapeCast_self, shapeCast_self]
  show max (x0 (ix2 a b) + broadcastTo S5000x128 x2 broadcasts_S1x128_S5000x128 (ix2 a b)) _ = _
  rw [broadcastTo_1b_ab_apply]
  rfl

/-- The printed index maps over the 20 points: the operand's and the output's row-block index is the point, every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- Every row block is some point's. -/
theorem idx_onto : ∀ q : Fin 20, ∃ t : Fin cfg1.N, win1_2.index t = ![q.val, 0] :=
  (by decide +kernel : ∀ q : Fin 20, ∃ t : Fin grid1.N, win1_2.index t = ![q.val, 0])

/-- The operand's block at point `t`: rows `5000 t + a` of the array. -/
theorem lhs_blk (c : Dev nD) (t : Fin cfg1.N) (a : Fin 5000) (k : Fin 128) (h : 5000 * t.val + a.val < 100000) :
    iblk1 V c 0 t (ix2 a k) = (V c main_v45 : S100000x128.Idx → EReal) (ix2 ⟨5000 * t.val + a.val, h⟩ k) := by
  obtain ⟨e0, e1, -, -, -, -, -⟩ := idx_facts t
  show (V c main_v45 : S100000x128.Idx → EReal) (((cfg1.win 0).blk t).view.emb (ix2 a k)) = _
  refine congrArg (V c main_v45 : S100000x128.Idx → EReal) (funext fun ax => Fin.ext ?_)
  match ax with
  | ⟨0, _⟩ => show win1_0.index t (0 : Fin 2) * 5000 + 1 * a.val = 5000 * t.val + a.val; omega
  | ⟨1, _⟩ => show win1_0.index t (1 : Fin 2) * 128 + 1 * k.val = k.val; omega

/-- The bias row's block at any point: the whole one-row array. -/
theorem rhs_blk (c : Dev nD) (t : Fin cfg1.N) (u : Fin 1) (b : Fin 128) :
    iblk1 V c 1 t (ix2 u b) = (V c main_v46 : S1x128.Idx → EReal) (ix2 u b) := by
  obtain ⟨-, -, e2, e3, -, -, -⟩ := idx_facts t
  show (V c main_v46 : S1x128.Idx → EReal) (((cfg1.win 1).blk t).view.emb (ix2 u b)) = _
  refine congrArg (V c main_v46 : S1x128.Idx → EReal) (funext fun ax => Fin.ext ?_)
  match ax with
  | ⟨0, _⟩ => show win1_1.index t (0 : Fin 2) * 1 + 1 * u.val = u.val; omega
  | ⟨1, _⟩ => show win1_1.index t (1 : Fin 2) * 128 + 1 * b.val = b.val; omega

/-- What point `t` writes back is block `t` of the bias stage applied to the arrays the region finds. -/
theorem flushed_eq (c : Dev nD) (t : Fin cfg1.N) :
    (dat1 V c).flushed 2 t = ((cfg1.win 2).blk t).view.read (Elt Ideal)
      (Cert.Gcn.rowBiasRelu (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg1.win 2).blk t).view.emb (ix2 a b) = (ix2 ⟨5000 * t.val + a.val, hrow⟩ b : S100000x128.Idx) := by
    funext ax; apply Fin.ext
    match ax with
    | ⟨0, _⟩ => show win1_2.index t (0 : Fin 2) * 5000 + 1 * a.val = 5000 * t.val + a.val; omega
    | ⟨1, _⟩ => show win1_2.index t (1 : Fin 2) * 128 + 1 * b.val = b.val; omega
  show k1_pay1 (iblk1 V c 0 t) (iblk1 V c 1 t) (ix2 a b)
    = Cert.Gcn.rowBiasRelu (V c main_v45) (V c main_v46) (((cfg1.win 2).blk t).view.emb (ix2 a b))
  rw [hemb]
  refine (pay_apply (iblk1 V c 0 t) (iblk1 V c 1 t) a b).trans ?_
  rw [lhs_blk V c t a b hrow, rhs_blk V c t 0 b]
  rfl

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index of the output array is in some point's block: row `r` is in block `r / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the bias stage of the two arrays the region finds. -/
theorem final (c : Dev nD) :
    (dat1 V c).arrAt 2 cfg1.N = Cert.Gcn.rowBiasRelu (V c main_v45) (V c main_v46) :=
  (dat1 V c).arrAt_eq_of_cover 2 _ (fun t _ => flushed_eq V c t) covered

end Cert.KernelIdeal.Region1

end
-- ==== Proof.Region2.lean ====
/-
  Region 2: a row-blocked matrix product. The grid has 20 points; point `t` loads rows `5000 t … 5000 t + 4999` of the
  left operand and the whole right operand, and writes the product of the two back to the same rows of the output. Entry
  `(5000 t + a, b)` of the output is therefore `∑ k, x (5000 t + a, k) · W (k, b)`, which is entry `(5000 t + a, b)` of the whole
  product `x · W` (the narrowing of the operands to a shorter float format is the identity on extended reals). The 20 blocks
  tile the 100000 rows, so the output array ends as `x · W`.
-/
import proofs.«146877_j30399778521459_1_alg».proof.Proof.Gen.KernelIdeal.Frame
import Idealize.ShloMosaic.Lib.Pipeline.Value
import proofs.«146877_j30399778521459_1_alg».proof.Proof.LibMatmulIdx
import proofs.«146877_j30399778521459_1_alg».proof.Proof.LibDotGeneralIdx
import proofs.«146877_j30399778521459_1_alg».proof.Proof.Spec

set_option maxRecDepth 16384

open scoped BigOperators

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a row and a column of the block: the sum over the contracted coordinate. -/
theorem pay_apply (x0 : Vec Ideal S5000x128 .f32) (x1 : Vec Ideal S128x128 .f32) (a : Fin 5000) (b : Fin 128) :
    k2_pay1 x0 x1 (ix2 a b) = ∑ k : Fin 128, x0 (ix2 a k) * x1 (ix2 k b) := by
  unfold k2_pay1
  rw [shapeCast_self]
  exact Cert.LibMatmulIdx.matmul_rc_apply _ none _ _ a b

/-- The printed index maps over the 20 points: the left operand's and the output's row-block index is the point, every
    other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Every row block is some point's. -/
theorem idx_onto : ∀ q : Fin 20, ∃ t : Fin cfg2.N, win2_2.index t = ![q.val, 0] :=
  (by decide +kernel : ∀ q : Fin 20, ∃ t : Fin grid2.N, win2_2.index t = ![q.val, 0])

/-- The left operand's block at point `t`: rows `5000 t + a` of the array. -/
theorem lhs_blk (c : Dev nD) (t : Fin cfg2.N) (a : Fin 5000) (k : Fin 128) (h : 5000 * t.val + a.val < 100000) :
    iblk2 V c 0 t (ix2 a k) = (V c main_v47 : S100000x128.Idx → EReal) (ix2 ⟨5000 * t.val + a.val, h⟩ k) := by
  obtain ⟨e0, e1, -, -, -, -, -⟩ := idx_facts t
  show (V c main_v47 : S100000x128.Idx → EReal) (((cfg2.win 0).blk t).view.emb (ix2 a k)) = _
  refine congrArg (V c main_v47 : S100000x128.Idx → EReal) (funext fun ax => Fin.ext ?_)
  match ax with
  | ⟨0, _⟩ => show win2_0.index t (0 : Fin 2) * 5000 + 1 * a.val = 5000 * t.val + a.val; omega
  | ⟨1, _⟩ => show win2_0.index t (1 : Fin 2) * 128 + 1 * k.val = k.val; omega

/-- The right operand's block at any point: the whole array. -/
theorem rhs_blk (c : Dev nD) (t : Fin cfg2.N) (k : Fin 128) (b : Fin 128) :
    iblk2 V c 1 t (ix2 k b) = (V c main_arg5 : S128x128.Idx → EReal) (ix2 k b) := by
  obtain ⟨-, -, e2, e3, -, -, -⟩ := idx_facts t
  show (V c main_arg5 : S128x128.Idx → EReal) (((cfg2.win 1).blk t).view.emb (ix2 k b)) = _
  refine congrArg (V c main_arg5 : S128x128.Idx → EReal) (funext fun ax => Fin.ext ?_)
  match ax with
  | ⟨0, _⟩ => show win2_1.index t (0 : Fin 2) * 128 + 1 * k.val = k.val; omega
  | ⟨1, _⟩ => show win2_1.index t (1 : Fin 2) * 128 + 1 * b.val = b.val; omega

/-- What point `t` writes back is block `t` of the whole product of the arrays the region finds. -/
theorem flushed_eq (c : Dev nD) (t : Fin cfg2.N) :
    (dat2 V c).flushed 2 t = ((cfg2.win 2).blk t).view.read (Elt Ideal)
      (Cert.Gcn.dense (F := Ideal) (V c main_v47) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg2.win 2).blk t).view.emb (ix2 a b) = (ix2 ⟨5000 * t.val + a.val, hrow⟩ b : S100000x128.Idx) := by
    funext ax; apply Fin.ext
    match ax with
    | ⟨0, _⟩ => show win2_2.index t (0 : Fin 2) * 5000 + 1 * a.val = 5000 * t.val + a.val; omega
    | ⟨1, _⟩ => show win2_2.index t (1 : Fin 2) * 128 + 1 * b.val = b.val; omega
  show k2_pay1 (iblk2 V c 0 t) (iblk2 V c 1 t) (ix2 a b)
    = Cert.Gcn.dense (F := Ideal) (V c main_v47) (V c main_arg5) (((cfg2.win 2).blk t).view.emb (ix2 a b))
  rw [hemb]
  refine (pay_apply (iblk2 V c 0 t) (iblk2 V c 1 t) a b).trans ?_
  unfold Cert.Gcn.dense
  refine Eq.trans ?_ (Cert.LibDotGeneralIdx.dotGeneral_rc_apply _ none (V c main_v47) (V c main_arg5) ⟨5000 * t.val + a.val, hrow⟩ b).symm
  refine Finset.sum_congr rfl fun k _ => ?_
  rw [lhs_blk V c t a k hrow, rhs_blk V c t k b]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the output array is in some point's block: row `r` is in block `r / 5000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product of the two arrays the region finds. -/
theorem final (c : Dev nD) :
    (dat2 V c).arrAt 2 cfg2.N = Cert.Gcn.dense (F := Ideal) (V c main_v47) (V c main_arg5) :=
  (dat2 V c).arrAt_eq_of_cover 2 _ (fun t _ => flushed_eq V c t) covered

end Cert.KernelIdeal.Region2

end
-- ==== Proof.Region3.lean ====
/-
  Region 3: the bias and max(·, 0), row block by row block. The grid has 20 points; point `t` loads rows
  `5000 t … 5000 t + 4999` of the aggregated features and the one-row bias, adds the bias row to every loaded row,
  takes the maximum with zero, and writes the block back to the same rows of the output. The 20 blocks tile the 100000 rows, so
  the output array ends as that function of the two arrays the region finds.
-/
import proofs.«146877_j30399778521459_1_alg».proof.Proof.Gen.KernelIdeal.Frame
import Idealize.ShloMosaic.Lib.Pipeline.Value
import Idealize.ShloMosaic.Lib.ValueLayout
import proofs.«146877_j30399778521459_1_alg».proof.Proof.BiasSpec

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a row and a column of the block. -/
theorem pay_apply (x0 : Vec Ideal S5000x128 .f32) (x2 : Vec Ideal S1x128 .f32) (a : Fin 5000) (b : Fin 128) :
    k3_pay1 x0 x2 (ix2 a b) = max (x0 (ix2 a b) + x2 (ix2 (0 : Fin 1) b)) (FloatOps.ofBits (F := Ideal) .f32 0x00000000#32) := by
  unfold k3_pay1
  rw [shapeCast_self, shapeCast_self, shapeCast_self]
  show max (x0 (ix2 a b) + broadcastTo S5000x128 x2 broadcasts_S1x128_S5000x128 (ix2 a b)) _ = _
  rw [broadcastTo_1b_ab_apply]
  rfl

/-- The printed index maps over the 20 points: the operand's and the output's row-block index is the point, every other
    block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 20 :=
  (by decide +kernel : ∀ t : Fin grid3.N, _)

/-- Every row block is some point's. -/
theorem idx_onto : ∀ q : Fin 20, ∃ t : Fin cfg3.N, win3_2.index t = ![q.val, 0] :=
  (by decide +kernel : ∀ q : Fin 20, ∃ t : Fin grid3.N, win3_2.index t = ![q.val, 0])

/-- The operand's block at point `t`: rows `5000 t + a` of the array. -/
theorem lhs_blk (c : Dev nD) (t : Fin cfg3.N) (a : Fin 5000) (k : Fin 128) (h : 5000 * t.val + a.val < 100000) :
    iblk3 V c 0 t (ix2 a k) = (V c main_v61 : S100000x128.Idx → EReal) (ix2 ⟨5000 * t.val + a.val, h⟩ k) := by
  obtain ⟨e0, e1, -, -, -, -, -⟩ := idx_facts t
  show (V c main_v61 : S100000x128.Idx → EReal) (((cfg3.win 0).blk t).view.emb (ix2 a k)) = _
  refine congrArg (V c main_v61 : S100000x128.Idx → EReal) (funext fun ax => Fin.ext ?_)
  match ax with
  | ⟨0, _⟩ => show win3_0.index t (0 : Fin 2) * 5000 + 1 * a.val = 5000 * t.val + a.val; omega
  | ⟨1, _⟩ => show win3_0.index t (1 : Fin 2) * 128 + 1 * k.val = k.val; omega

/-- The bias row's block at any point: the whole one-row array. -/
theorem rhs_blk (c : Dev nD) (t : Fin cfg3.N) (u : Fin 1) (b : Fin 128) :
    iblk3 V c 1 t (ix2 u b) = (V c main_v62 : S1x128.Idx → EReal) (ix2 u b) := by
  obtain ⟨-, -, e2, e3, -, -, -⟩ := idx_facts t
  show (V c main_v62 : S1x128.Idx → EReal) (((cfg3.win 1).blk t).view.emb (ix2 u b)) = _
  refine congrArg (V c main_v62 : S1x128.Idx → EReal) (funext fun ax => Fin.ext ?_)
  match ax with
  | ⟨0, _⟩ => show win3_1.index t (0 : Fin 2) * 1 + 1 * u.val = u.val; omega
  | ⟨1, _⟩ => show win3_1.index t (1 : Fin 2) * 128 + 1 * b.val = b.val; omega

/-- What point `t` writes back is block `t` of the bias stage applied to the arrays the region finds. -/
theorem flushed_eq (c : Dev nD) (t : Fin cfg3.N) :
    (dat3 V c).flushed 2 t = ((cfg3.win 2).blk t).view.read (Elt Ideal)
      (Cert.Gcn.rowBiasRelu (V c main_v61) (V c main_v62)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg3.win 2).blk t).view.emb (ix2 a b) = (ix2 ⟨5000 * t.val + a.val, hrow⟩ b : S100000x128.Idx) := by
    funext ax; apply Fin.ext
    match ax with
    | ⟨0, _⟩ => show win3_2.index t (0 : Fin 2) * 5000 + 1 * a.val = 5000 * t.val + a.val; omega
    | ⟨1, _⟩ => show win3_2.index t (1 : Fin 2) * 128 + 1 * b.val = b.val; omega
  show k3_pay1 (iblk3 V c 0 t) (iblk3 V c 1 t) (ix2 a b)
    = Cert.Gcn.rowBiasRelu (V c main_v61) (V c main_v62) (((cfg3.win 2).blk t).view.emb (ix2 a b))
  rw [hemb]
  refine (pay_apply (iblk3 V c 0 t) (iblk3 V c 1 t) a b).trans ?_
  rw [lhs_blk V c t a b hrow, rhs_blk V c t 0 b]
  rfl

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every index of the output array is in some point's block: row `r` is in block `r / 5000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the bias stage of the two arrays the region finds. -/
theorem final (c : Dev nD) :
    (dat3 V c).arrAt 2 cfg3.N = Cert.Gcn.rowBiasRelu (V c main_v61) (V c main_v62) :=
  (dat3 V c).arrAt_eq_of_cover 2 _ (fun t _ => flushed_eq V c t) covered

end Cert.KernelIdeal.Region3

end
-- ==== Proof.Region4.lean ====
/-
  Region 4: a row-blocked matrix product. The grid has 20 points; point `t` loads rows `5000 t … 5000 t + 4999` of the
  left operand and the whole right operand, and writes the product of the two back to the same rows of the output. Entry
  `(5000 t + a, b)` of the output is therefore `∑ k, x (5000 t + a, k) · W (k, b)`, which is entry `(5000 t + a, b)` of the whole
  product `x · W` (the narrowing of the operands to a shorter float format is the identity on extended reals). The 20 blocks
  tile the 100000 rows, so the output array ends as `x · W`.
-/
import proofs.«146877_j30399778521459_1_alg».proof.Proof.Gen.KernelIdeal.Frame
import Idealize.ShloMosaic.Lib.Pipeline.Value
import proofs.«146877_j30399778521459_1_alg».proof.Proof.LibMatmulIdx
import proofs.«146877_j30399778521459_1_alg».proof.Proof.LibDotGeneralIdx
import proofs.«146877_j30399778521459_1_alg».proof.Proof.Spec

set_option maxRecDepth 16384

open scoped BigOperators

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a row and a column of the block: the sum over the contracted coordinate. -/
theorem pay_apply (x0 : Vec Ideal S5000x128 .f32) (x1 : Vec Ideal S128x128 .f32) (a : Fin 5000) (b : Fin 128) :
    k4_pay1 x0 x1 (ix2 a b) = ∑ k : Fin 128, x0 (ix2 a k) * x1 (ix2 k b) := by
  unfold k4_pay1
  rw [shapeCast_self]
  exact Cert.LibMatmulIdx.matmul_rc_apply _ none _ _ a b

/-- The printed index maps over the 20 points: the left operand's and the output's row-block index is the point, every
    other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 20 :=
  (by decide +kernel : ∀ t : Fin grid4.N, _)

/-- Every row block is some point's. -/
theorem idx_onto : ∀ q : Fin 20, ∃ t : Fin cfg4.N, win4_2.index t = ![q.val, 0] :=
  (by decide +kernel : ∀ q : Fin 20, ∃ t : Fin grid4.N, win4_2.index t = ![q.val, 0])

/-- The left operand's block at point `t`: rows `5000 t + a` of the array. -/
theorem lhs_blk (c : Dev nD) (t : Fin cfg4.N) (a : Fin 5000) (k : Fin 128) (h : 5000 * t.val + a.val < 100000) :
    iblk4 V c 0 t (ix2 a k) = (V c main_v63 : S100000x128.Idx → EReal) (ix2 ⟨5000 * t.val + a.val, h⟩ k) := by
  obtain ⟨e0, e1, -, -, -, -, -⟩ := idx_facts t
  show (V c main_v63 : S100000x128.Idx → EReal) (((cfg4.win 0).blk t).view.emb (ix2 a k)) = _
  refine congrArg (V c main_v63 : S100000x128.Idx → EReal) (funext fun ax => Fin.ext ?_)
  match ax with
  | ⟨0, _⟩ => show win4_0.index t (0 : Fin 2) * 5000 + 1 * a.val = 5000 * t.val + a.val; omega
  | ⟨1, _⟩ => show win4_0.index t (1 : Fin 2) * 128 + 1 * k.val = k.val; omega

/-- The right operand's block at any point: the whole array. -/
theorem rhs_blk (c : Dev nD) (t : Fin cfg4.N) (k : Fin 128) (b : Fin 128) :
    iblk4 V c 1 t (ix2 k b) = (V c main_arg7 : S128x128.Idx → EReal) (ix2 k b) := by
  obtain ⟨-, -, e2, e3, -, -, -⟩ := idx_facts t
  show (V c main_arg7 : S128x128.Idx → EReal) (((cfg4.win 1).blk t).view.emb (ix2 k b)) = _
  refine congrArg (V c main_arg7 : S128x128.Idx → EReal) (funext fun ax => Fin.ext ?_)
  match ax with
  | ⟨0, _⟩ => show win4_1.index t (0 : Fin 2) * 128 + 1 * k.val = k.val; omega
  | ⟨1, _⟩ => show win4_1.index t (1 : Fin 2) * 128 + 1 * b.val = b.val; omega

/-- What point `t` writes back is block `t` of the whole product of the arrays the region finds. -/
theorem flushed_eq (c : Dev nD) (t : Fin cfg4.N) :
    (dat4 V c).flushed 2 t = ((cfg4.win 2).blk t).view.read (Elt Ideal)
      (Cert.Gcn.dense (F := Ideal) (V c main_v63) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg4.win 2).blk t).view.emb (ix2 a b) = (ix2 ⟨5000 * t.val + a.val, hrow⟩ b : S100000x128.Idx) := by
    funext ax; apply Fin.ext
    match ax with
    | ⟨0, _⟩ => show win4_2.index t (0 : Fin 2) * 5000 + 1 * a.val = 5000 * t.val + a.val; omega
    | ⟨1, _⟩ => show win4_2.index t (1 : Fin 2) * 128 + 1 * b.val = b.val; omega
  show k4_pay1 (iblk4 V c 0 t) (iblk4 V c 1 t) (ix2 a b)
    = Cert.Gcn.dense (F := Ideal) (V c main_v63) (V c main_arg7) (((cfg4.win 2).blk t).view.emb (ix2 a b))
  rw [hemb]
  refine (pay_apply (iblk4 V c 0 t) (iblk4 V c 1 t) a b).trans ?_
  unfold Cert.Gcn.dense
  refine Eq.trans ?_ (Cert.LibDotGeneralIdx.dotGeneral_rc_apply _ none (V c main_v63) (V c main_arg7) ⟨5000 * t.val + a.val, hrow⟩ b).symm
  refine Finset.sum_congr rfl fun k _ => ?_
  rw [lhs_blk V c t a k hrow, rhs_blk V c t k b]

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every index of the output array is in some point's block: row `r` is in block `r / 5000`. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the whole product of the two arrays the region finds. -/
theorem final (c : Dev nD) :
    (dat4 V c).arrAt 2 cfg4.N = Cert.Gcn.dense (F := Ideal) (V c main_v63) (V c main_arg7) :=
  (dat4 V c).arrAt_eq_of_cover 2 _ (fun t _ => flushed_eq V c t) covered

end Cert.KernelIdeal.Region4

end
-- ==== Proof.Region5.lean ====
/-
  Region 5: the bias and max(·, 0), row block by row block. The grid has 20 points; point `t` loads rows
  `5000 t … 5000 t + 4999` of the aggregated features and the one-row bias, adds the bias row to every loaded row,
  takes the maximum with zero, and writes the block back to the same rows of the output. The 20 blocks tile the 100000 rows, so
  the output array ends as that function of the two arrays the region finds.
-/
import proofs.«146877_j30399778521459_1_alg».proof.Proof.Gen.KernelIdeal.Frame
import Idealize.ShloMosaic.Lib.Pipeline.Value
import Idealize.ShloMosaic.Lib.ValueLayout
import proofs.«146877_j30399778521459_1_alg».proof.Proof.BiasSpec

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a row and a column of the block. -/
theorem pay_apply (x0 : Vec Ideal S5000x128 .f32) (x2 : Vec Ideal S1x128 .f32) (a : Fin 5000) (b : Fin 128) :
    k5_pay1 x0 x2 (ix2 a b) = max (x0 (ix2 a b) + x2 (ix2 (0 : Fin 1) b)) (FloatOps.ofBits (F := Ideal) .f32 0x00000000#32) := by
  unfold k5_pay1
  rw [shapeCast_self, shapeCast_self, shapeCast_self]
  show max (x0 (ix2 a b) + broadcastTo S5000x128 x2 broadcasts_S1x128_S5000x128 (ix2 a b)) _ = _
  rw [broadcastTo_1b_ab_apply]
  rfl

/-- The printed index maps over the 20 points: the operand's and the output's row-block index is the point, every other
    block index is zero. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 20 :=
  (by decide +kernel : ∀ t : Fin grid5.N, _)

/-- Every row block is some point's. -/
theorem idx_onto : ∀ q : Fin 20, ∃ t : Fin cfg5.N, win5_2.index t = ![q.val, 0] :=
  (by decide +kernel : ∀ q : Fin 20, ∃ t : Fin grid5.N, win5_2.index t = ![q.val, 0])

/-- The operand's block at point `t`: rows `5000 t + a` of the array. -/
theorem lhs_blk (c : Dev nD) (t : Fin cfg5.N) (a : Fin 5000) (k : Fin 128) (h : 5000 * t.val + a.val < 100000) :
    iblk5 V c 0 t (ix2 a k) = (V c main_v77 : S100000x128.Idx → EReal) (ix2 ⟨5000 * t.val + a.val, h⟩ k) := by
  obtain ⟨e0, e1, -, -, -, -, -⟩ := idx_facts t
  show (V c main_v77 : S100000x128.Idx → EReal) (((cfg5.win 0).blk t).view.emb (ix2 a k)) = _
  refine congrArg (V c main_v77 : S100000x128.Idx → EReal) (funext fun ax => Fin.ext ?_)
  match ax with
  | ⟨0, _⟩ => show win5_0.index t (0 : Fin 2) * 5000 + 1 * a.val = 5000 * t.val + a.val; omega
  | ⟨1, _⟩ => show win5_0.index t (1 : Fin 2) * 128 + 1 * k.val = k.val; omega

/-- The bias row's block at any point: the whole one-row array. -/
theorem rhs_blk (c : Dev nD) (t : Fin cfg5.N) (u : Fin 1) (b : Fin 128) :
    iblk5 V c 1 t (ix2 u b) = (V c main_v78 : S1x128.Idx → EReal) (ix2 u b) := by
  obtain ⟨-, -, e2, e3, -, -, -⟩ := idx_facts t
  show (V c main_v78 : S1x128.Idx → EReal) (((cfg5.win 1).blk t).view.emb (ix2 u b)) = _
  refine congrArg (V c main_v78 : S1x128.Idx → EReal) (funext fun ax => Fin.ext ?_)
  match ax with
  | ⟨0, _⟩ => show win5_1.index t (0 : Fin 2) * 1 + 1 * u.val = u.val; omega
  | ⟨1, _⟩ => show win5_1.index t (1 : Fin 2) * 128 + 1 * b.val = b.val; omega

/-- What point `t` writes back is block `t` of the bias stage applied to the arrays the region finds. -/
theorem flushed_eq (c : Dev nD) (t : Fin cfg5.N) :
    (dat5 V c).flushed 2 t = ((cfg5.win 2).blk t).view.read (Elt Ideal)
      (Cert.Gcn.rowBiasRelu (V c main_v77) (V c main_v78)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg5.win 2).blk t).view.emb (ix2 a b) = (ix2 ⟨5000 * t.val + a.val, hrow⟩ b : S100000x128.Idx) := by
    funext ax; apply Fin.ext
    match ax with
    | ⟨0, _⟩ => show win5_2.index t (0 : Fin 2) * 5000 + 1 * a.val = 5000 * t.val + a.val; omega
    | ⟨1, _⟩ => show win5_2.index t (1 : Fin 2) * 128 + 1 * b.val = b.val; omega
  show k5_pay1 (iblk5 V c 0 t) (iblk5 V c 1 t) (ix2 a b)
    = Cert.Gcn.rowBiasRelu (V c main_v77) (V c main_v78) (((cfg5.win 2).blk t).view.emb (ix2 a b))
  rw [hemb]
  refine (pay_apply (iblk5 V c 0 t) (iblk5 V c 1 t) a b).trans ?_
  rw [lhs_blk V c t a b hrow, rhs_blk V c t 0 b]
  rfl

/-- An index of the output array is in point `t`'s block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Every index of the output array is in some point's block: row `r` is in block `r / 5000`. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region: the bias stage of the two arrays the region finds. -/
theorem final (c : Dev nD) :
    (dat5 V c).arrAt 2 cfg5.N = Cert.Gcn.rowBiasRelu (V c main_v77) (V c main_v78) :=
  (dat5 V c).arrAt_eq_of_cover 2 _ (fun t _ => flushed_eq V c t) covered

end Cert.KernelIdeal.Region5

end
-- ==== Proof.Region6.lean ====
/-
  Region 6: a row-blocked matrix product. The grid has 20 points; point `t` loads rows `5000 t … 5000 t + 4999` of the
  left operand and the whole right operand, and writes the product of the two back to the same rows of the output. Entry
  `(5000 t + a, b)` of the output is therefore `∑ k, x (5000 t + a, k) · W (k, b)`, which is entry `(5000 t + a, b)` of the whole
  product `x · W` (the narrowing of the operands to a shorter float format is the identity on extended reals). The 20 blocks
  tile the 100000 rows, so the output array ends as `x · W`.
-/
import proofs.«146877_j30399778521459_1_alg».proof.Proof.Gen.KernelIdeal.Frame
import Idealize.ShloMosaic.Lib.Pipeline.Value
import proofs.«146877_j30399778521459_1_alg».proof.Proof.LibMatmulIdx
import proofs.«146877_j30399778521459_1_alg».proof.Proof.LibDotGeneralIdx
import proofs.«146877_j30399778521459_1_alg».proof.Proof.Spec

set_option maxRecDepth 16384

open scoped BigOperators

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a row and a column of the block: the sum over the contracted coordinate. -/
theorem pay_apply (x0 : Vec Ideal S5000x128 .f32) (x1 : Vec Ideal S128x128 .f32) (a : Fin 5000) (b : Fin 128) :
    k6_pay1 x0 x1 (ix2 a b) = ∑ k : Fin 128, x0 (ix2 a k) * x1 (ix2 k b) := by
  unfold k6_pay1
  rw [shapeCast_self]
  exact Cert.LibMatmulIdx.matmul_rc_apply _ none _ _ a b

/-- The printed index maps over the 20 points: the left operand's and the output's row-block index is the point, every
    other block index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 20 :=
  (by decide +kernel : ∀ t : Fin grid6.N, _)

/-- Every row block is some point's. -/
theorem idx_onto : ∀ q : Fin 20, ∃ t : Fin cfg6.N, win6_2.index t = ![q.val, 0] :=
  (by decide +kernel : ∀ q : Fin 20, ∃ t : Fin grid6.N, win6_2.index t = ![q.val, 0])

/-- The left operand's block at point `t`: rows `5000 t + a` of the array. -/
theorem lhs_blk (c : Dev nD) (t : Fin cfg6.N) (a : Fin 5000) (k : Fin 128) (h : 5000 * t.val + a.val < 100000) :
    iblk6 V c 0 t (ix2 a k) = (V c main_v79 : S100000x128.Idx → EReal) (ix2 ⟨5000 * t.val + a.val, h⟩ k) := by
  obtain ⟨e0, e1, -, -, -, -, -⟩ := idx_facts t
  show (V c main_v79 : S100000x128.Idx → EReal) (((cfg6.win 0).blk t).view.emb (ix2 a k)) = _
  refine congrArg (V c main_v79 : S100000x128.Idx → EReal) (funext fun ax => Fin.ext ?_)
  match ax with
  | ⟨0, _⟩ => show win6_0.index t (0 : Fin 2) * 5000 + 1 * a.val = 5000 * t.val + a.val; omega
  | ⟨1, _⟩ => show win6_0.index t (1 : Fin 2) * 128 + 1 * k.val = k.val; omega

/-- The right operand's block at any point: the whole array. -/
theorem rhs_blk (c : Dev nD) (t : Fin cfg6.N) (k : Fin 128) (b : Fin 128) :
    iblk6 V c 1 t (ix2 k b) = (V c main_arg9 : S128x128.Idx → EReal) (ix2 k b) := by
  obtain ⟨-, -, e2, e3, -, -, -⟩ := idx_facts t
  show (V c main_arg9 : S128x128.Idx → EReal) (((cfg6.win 1).blk t).view.emb (ix2 k b)) = _
  refine congrArg (V c main_arg9 : S128x128.Idx → EReal) (funext fun ax => Fin.ext ?_)
  match ax with
  | ⟨0, _⟩ => show win6_1.index t (0 : Fin 2) * 128 + 1 * k.val = k.val; omega
  | ⟨1, _⟩ => show win6_1.index t (1 : Fin 2) * 128 + 1 * b.val = b.val; omega

/-- What point `t` writes back is block `t` of the whole product of the arrays the region finds. -/
theorem flushed_eq (c : Dev nD) (t : Fin cfg6.N) :
    (dat6 V c).flushed 2 t = ((cfg6.win 2).blk t).view.read (Elt Ideal)
      (Cert.Gcn.dense (F := Ideal) (V c main_v79) (V c main_arg9)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg6.win 2).blk t).view.emb (ix2 a b) = (ix2 ⟨5000 * t.val + a.val, hrow⟩ b : S100000x128.Idx) := by
    funext ax; apply Fin.ext
    match ax with
    | ⟨0, _⟩ => show win6_2.index t (0 : Fin 2) * 5000 + 1 * a.val = 5000 * t.val + a.val; omega
    | ⟨1, _⟩ => show win6_2.index t (1 : Fin 2) * 128 + 1 * b.val = b.val; omega
  show k6_pay1 (iblk6 V c 0 t) (iblk6 V c 1 t) (ix2 a b)
    = Cert.Gcn.dense (F := Ideal) (V c main_v79) (V c main_arg9) (((cfg6.win 2).blk t).view.emb (ix2 a b))
  rw [hemb]
  refine (pay_apply (iblk6 V c 0 t) (iblk6 V c 1 t) a b).trans ?_
  unfold Cert.Gcn.dense
  refine Eq.trans ?_ (Cert.LibDotGeneralIdx.dotGeneral_rc_apply _ none (V c main_v79) (V c main_arg9) ⟨5000 * t.val + a.val, hrow⟩ b).symm
  refine Finset.sum_congr rfl fun k _ => ?_
  rw [lhs_blk V c t a k hrow, rhs_blk V c t k b]

/-- An index of the output array is in point `t`'s block iff each coordinate is in the block's range on its axis. -/
theorem mem_blk (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v80).slice (win6_2.rect t)).set ↔ _
  rw [View.set_slice_whole, Rect.mem_set_unit]
  exact Iff.rfl

/-- Every index of the output array is in some point's block: row `r` is in block `r / 5000`. -/
theorem covered (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the whole product of the two arrays the region finds. -/
theorem final (c : Dev nD) :
    (dat6 V c).arrAt 2 cfg6.N = Cert.Gcn.dense (F := Ideal) (V c main_v79) (V c main_arg9) :=
  (dat6 V c).arrAt_eq_of_cover 2 _ (fun t _ => flushed_eq V c t) covered

end Cert.KernelIdeal.Region6

end
-- ==== Proof.Region7.lean ====
/-
  Region 7: the bias and max(·, 0), row block by row block. The grid has 20 points; point `t` loads rows
  `5000 t … 5000 t + 4999` of the aggregated features and the one-row bias, adds the bias row to every loaded row,
  takes the maximum with zero, and writes the block back to the same rows of the output. The 20 blocks tile the 100000 rows, so
  the output array ends as that function of the two arrays the region finds.
-/
import proofs.«146877_j30399778521459_1_alg».proof.Proof.Gen.KernelIdeal.Frame
import Idealize.ShloMosaic.Lib.Pipeline.Value
import Idealize.ShloMosaic.Lib.ValueLayout
import proofs.«146877_j30399778521459_1_alg».proof.Proof.BiasSpec

set_option maxRecDepth 16384

noncomputable section

namespace Cert.KernelIdeal.Region7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a row and a column of the block. -/
theorem pay_apply (x0 : Vec Ideal S5000x128 .f32) (x2 : Vec Ideal S1x128 .f32) (a : Fin 5000) (b : Fin 128) :
    k7_pay1 x0 x2 (ix2 a b) = max (x0 (ix2 a b) + x2 (ix2 (0 : Fin 1) b)) (FloatOps.ofBits (F := Ideal) .f32 0x00000000#32) := by
  unfold k7_pay1
  rw [shapeCast_self, shapeCast_self, shapeCast_self]
  show max (x0 (ix2 a b) + broadcastTo S5000x128 x2 broadcasts_S1x128_S5000x128 (ix2 a b)) _ = _
  rw [broadcastTo_1b_ab_apply]
  rfl

/-- The printed index maps over the 20 points: the operand's and the output's row-block index is the point, every other
    block index is zero. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 20 :=
  (by decide +kernel : ∀ t : Fin grid7.N, _)

/-- Every row block is some point's. -/
theorem idx_onto : ∀ q : Fin 20, ∃ t : Fin cfg7.N, win7_2.index t = ![q.val, 0] :=
  (by decide +kernel : ∀ q : Fin 20, ∃ t : Fin grid7.N, win7_2.index t = ![q.val, 0])

/-- The operand's block at point `t`: rows `5000 t + a` of the array. -/
theorem lhs_blk (c : Dev nD) (t : Fin cfg7.N) (a : Fin 5000) (k : Fin 128) (h : 5000 * t.val + a.val < 100000) :
    iblk7 V c 0 t (ix2 a k) = (V c main_v93 : S100000x128.Idx → EReal) (ix2 ⟨5000 * t.val + a.val, h⟩ k) := by
  obtain ⟨e0, e1, -, -, -, -, -⟩ := idx_facts t
  show (V c main_v93 : S100000x128.Idx → EReal) (((cfg7.win 0).blk t).view.emb (ix2 a k)) = _
  refine congrArg (V c main_v93 : S100000x128.Idx → EReal) (funext fun ax => Fin.ext ?_)
  match ax with
  | ⟨0, _⟩ => show win7_0.index t (0 : Fin 2) * 5000 + 1 * a.val = 5000 * t.val + a.val; omega
  | ⟨1, _⟩ => show win7_0.index t (1 : Fin 2) * 128 + 1 * k.val = k.val; omega

/-- The bias row's block at any point: the whole one-row array. -/
theorem rhs_blk (c : Dev nD) (t : Fin cfg7.N) (u : Fin 1) (b : Fin 128) :
    iblk7 V c 1 t (ix2 u b) = (V c main_v94 : S1x128.Idx → EReal) (ix2 u b) := by
  obtain ⟨-, -, e2, e3, -, -, -⟩ := idx_facts t
  show (V c main_v94 : S1x128.Idx → EReal) (((cfg7.win 1).blk t).view.emb (ix2 u b)) = _
  refine congrArg (V c main_v94 : S1x128.Idx → EReal) (funext fun ax => Fin.ext ?_)
  match ax with
  | ⟨0, _⟩ => show win7_1.index t (0 : Fin 2) * 1 + 1 * u.val = u.val; omega
  | ⟨1, _⟩ => show win7_1.index t (1 : Fin 2) * 128 + 1 * b.val = b.val; omega

/-- What point `t` writes back is block `t` of the bias stage applied to the arrays the region finds. -/
theorem flushed_eq (c : Dev nD) (t : Fin cfg7.N) :
    (dat7 V c).flushed 2 t = ((cfg7.win 2).blk t).view.read (Elt Ideal)
      (Cert.Gcn.rowBiasRelu (V c main_v93) (V c main_v94)) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg7.win 2).blk t).view.emb (ix2 a b) = (ix2 ⟨5000 * t.val + a.val, hrow⟩ b : S100000x128.Idx) := by
    funext ax; apply Fin.ext
    match ax with
    | ⟨0, _⟩ => show win7_2.index t (0 : Fin 2) * 5000 + 1 * a.val = 5000 * t.val + a.val; omega
    | ⟨1, _⟩ => show win7_2.index t (1 : Fin 2) * 128 + 1 * b.val = b.val; omega
  show k7_pay1 (iblk7 V c 0 t) (iblk7 V c 1 t) (ix2 a b)
    = Cert.Gcn.rowBiasRelu (V c main_v93) (V c main_v94) (((cfg7.win 2).blk t).view.emb (ix2 a b))
  rw [hemb]
  refine (pay_apply (iblk7 V c 0 t) (iblk7 V c 1 t) a b).trans ?_
  rw [lhs_blk V c t a b hrow, rhs_blk V c t 0 b]
  rfl

/-- An index of the output array is in point `t`'s block iff each coordinate is in the block's range on its axis. -/
theorem mem_blk (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v95).slice (win7_2.rect t)).set ↔ _
  rw [View.set_slice_whole, Rect.mem_set_unit]
  exact Iff.rfl

/-- Every index of the output array is in some point's block: row `r` is in block `r / 5000`. -/
theorem covered (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, ht⟩ := idx_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- The output array after the region: the bias stage of the two arrays the region finds. -/
theorem final (c : Dev nD) :
    (dat7 V c).arrAt 2 cfg7.N = Cert.Gcn.rowBiasRelu (V c main_v93) (V c main_v94) :=
  (dat7 V c).arrAt_eq_of_cover 2 _ (fun t _ => flushed_eq V c t) covered

end Cert.KernelIdeal.Region7

end
-- ==== Proof.Region8.lean ====
/-
  Region 8: a row-blocked matrix product. The grid has 20 points; point `t` loads rows `5000 t … 5000 t + 4999` of the
  left operand and the whole right operand, and writes the product of the two back to the same rows of the output. Entry
  `(5000 t + a, b)` of the output is therefore `∑ k, x (5000 t + a, k) · W (k, b)`, which is entry `(5000 t + a, b)` of the whole
  product `x · W` (the narrowing of the operands to a shorter float format is the identity on extended reals). The 20 blocks
  tile the 100000 rows, so the output array ends as `x · W`.
-/
import proofs.«146877_j30399778521459_1_alg».proof.Proof.Gen.KernelIdeal.Frame
import Idealize.ShloMosaic.Lib.Pipeline.Value
import proofs.«146877_j30399778521459_1_alg».proof.Proof.LibMatmulIdx
import proofs.«146877_j30399778521459_1_alg».proof.Proof.LibDotGeneralIdx
import proofs.«146877_j30399778521459_1_alg».proof.Proof.Spec

set_option maxRecDepth 16384

open scoped BigOperators

noncomputable section

namespace Cert.KernelIdeal.Region8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at a row and a column of the block: the sum over the contracted coordinate. -/
theorem pay_apply (x0 : Vec Ideal S5000x128 .f32) (x1 : Vec Ideal S128x128 .f32) (a : Fin 5000) (b : Fin 128) :
    k8_pay1 x0 x1 (ix2 a b) = ∑ k : Fin 128, x0 (ix2 a k) * x1 (ix2 k b) := by
  unfold k8_pay1
  rw [shapeCast_self]
  exact Cert.LibMatmulIdx.matmul_rc_apply _ none _ _ a b

/-- The printed index maps over the 20 points: the left operand's and the output's row-block index is the point, every
    other block index is zero. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 ∧ t.val < 20 :=
  (by decide +kernel : ∀ t : Fin grid8.N, _)

/-- Every row block is some point's. -/
theorem idx_onto : ∀ q : Fin 20, ∃ t : Fin cfg8.N, win8_2.index t = ![q.val, 0] :=
  (by decide +kernel : ∀ q : Fin 20, ∃ t : Fin grid8.N, win8_2.index t = ![q.val, 0])

/-- The left operand's block at point `t`: rows `5000 t + a` of the array. -/
theorem lhs_blk (c : Dev nD) (t : Fin cfg8.N) (a : Fin 5000) (k : Fin 128) (h : 5000 * t.val + a.val < 100000) :
    iblk8 V c 0 t (ix2 a k) = (V c main_v95 : S100000x128.Idx → EReal) (ix2 ⟨5000 * t.val + a.val, h⟩ k) := by
  obtain ⟨e0, e1, -, -, -, -, -⟩ := idx_facts t
  show (V c main_v95 : S100000x128.Idx → EReal) (((cfg8.win 0).blk t).view.emb (ix2 a k)) = _
  refine congrArg (V c main_v95 : S100000x128.Idx → EReal) (funext fun ax => Fin.ext ?_)
  match ax with
  | ⟨0, _⟩ => show win8_0.index t (0 : Fin 2) * 5000 + 1 * a.val = 5000 * t.val + a.val; omega
  | ⟨1, _⟩ => show win8_0.index t (1 : Fin 2) * 128 + 1 * k.val = k.val; omega

/-- The right operand's block at any point: the whole array. -/
theorem rhs_blk (c : Dev nD) (t : Fin cfg8.N) (k : Fin 128) (b : Fin 128) :
    iblk8 V c 1 t (ix2 k b) = (V c main_arg11 : S128x128.Idx → EReal) (ix2 k b) := by
  obtain ⟨-, -, e2, e3, -, -, -⟩ := idx_facts t
  show (V c main_arg11 : S128x128.Idx → EReal) (((cfg8.win 1).blk t).view.emb (ix2 k b)) = _
  refine congrArg (V c main_arg11 : S128x128.Idx → EReal) (funext fun ax => Fin.ext ?_)
  match ax with
  | ⟨0, _⟩ => show win8_1.index t (0 : Fin 2) * 128 + 1 * k.val = k.val; omega
  | ⟨1, _⟩ => show win8_1.index t (1 : Fin 2) * 128 + 1 * b.val = b.val; omega

/-- What point `t` writes back is block `t` of the whole product of the arrays the region finds. -/
theorem flushed_eq (c : Dev nD) (t : Fin cfg8.N) :
    (dat8 V c).flushed 2 t = ((cfg8.win 2).blk t).view.read (Elt Ideal)
      (Cert.Gcn.dense (F := Ideal) (V c main_v95) (V c main_arg11)) := by
  show (cfg8.win 2).cut (grid8.coords t) ((dat8 V c).after 2 t) = _
  rw [after8_2]
  unfold out8_2
  rw [View.canon_unit_zero hz]
  simp only [View.ld_unit_zero (S := S5000x128) hz, View.ld_unit_zero (S := S128x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg8.win 2).blk t).view.emb (ix2 a b) = (ix2 ⟨5000 * t.val + a.val, hrow⟩ b : S100000x128.Idx) := by
    funext ax; apply Fin.ext
    match ax with
    | ⟨0, _⟩ => show win8_2.index t (0 : Fin 2) * 5000 + 1 * a.val = 5000 * t.val + a.val; omega
    | ⟨1, _⟩ => show win8_2.index t (1 : Fin 2) * 128 + 1 * b.val = b.val; omega
  show k8_pay1 (iblk8 V c 0 t) (iblk8 V c 1 t) (ix2 a b)
    = Cert.Gcn.dense (F := Ideal) (V c main_v95) (V c main_arg11) (((cfg8.win 2).blk t).view.emb (ix2 a b))
  rw [hemb]
  refine (pay_apply (iblk8 V c 0 t) (iblk8 V c 1 t) a b).trans ?_
  unfold Cert.Gcn.dense
  refine Eq.trans ?_ (Cert.LibDotGeneralIdx.dotGeneral_rc_apply _ none (V c main_v95) (V c main_arg11) ⟨5000 * t.val + a.val, hrow⟩ b).symm
  refine Finset.sum_congr rfl fun k _ => ?_
  rw [lhs_blk V c t a k hrow, rhs_blk V c t k b]

/-- An index of the output array is in point `t`'s block iff each coordinate is in the block's range on its axis. -/
theorem mem_blk (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v96).slice (win8_2.rect t)).set ↔ _
  rw [View.set_slice_whole, Rect.mem_set_unit]
  exact Iff.rfl

/-- Every index of the output array is in some point's block: row `r` is in block `r / 5000`. -/
theorem covered (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  obtain ⟨t, ht⟩ := idx_onto ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The output array after the region: the whole product of the two arrays the region finds. -/
theorem final (c : Dev nD) :
    (dat8 V c).arrAt 2 cfg8.N = Cert.Gcn.dense (F := Ideal) (V c main_v95) (V c main_arg11) :=
  (dat8 V c).arrAt_eq_of_cover 2 _ (fun t _ => flushed_eq V c t) covered

end Cert.KernelIdeal.Region8

end
-- ==== Proof.Region9.lean ====
/-
  Region 9: the bias, row block by row block. The grid has 20 points; point `t` loads rows
  `5000 t … 5000 t + 4999` of the aggregated features and the one-row bias, adds the bias row to every loaded row and writes the block back to the same rows of the output. The 20 blocks tile the 100000 rows, so
  the output array ends as that function of the two arrays the region finds.
-/
import proofs.«146877_j30399778521459_1_alg».proof.Proof.Gen.KernelIdeal.Frame
import Idealize.ShloMosaic.Lib.Pipeline.Value
import Idealize.ShloMosaic.Lib.ValueLayout
import proofs.«146877_j30399778521459_1_alg».proof.Proof.BiasSpec

set_option maxRecDepth 16384

noncomputable section

namespace Cert.KernelIdeal.Region9

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at a row and a column of the block. -/
theorem pay_apply (x0 : Vec Ideal S5000x128 .f32) (x2 : Vec Ideal S1x128 .f32) (a : Fin 5000) (b : Fin 128) :
    k9_pay1 x0 x2 (ix2 a b) = x0 (ix2 a b) + x2 (ix2 (0 : Fin 1) b) := by
  unfold k9_pay1
  rw [shapeCast_self, shapeCast_self, shapeCast_self]
  show x0 (ix2 a b) + broadcastTo S5000x128 x2 broadcasts_S1x128_S5000x128 (ix2 a b) = _
  rw [broadcastTo_1b_ab_apply]

/-- The printed index maps over the 20 points: the operand's and the output's row-block index is the point, every other
    block index is zero. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 ∧ t.val < 20 :=
  (by decide +kernel : ∀ t : Fin grid9.N, _)

/-- Every row block is some point's. -/
theorem idx_onto : ∀ q : Fin 20, ∃ t : Fin cfg9.N, win9_2.index t = ![q.val, 0] :=
  (by decide +kernel : ∀ q : Fin 20, ∃ t : Fin grid9.N, win9_2.index t = ![q.val, 0])

/-- The operand's block at point `t`: rows `5000 t + a` of the array. -/
theorem lhs_blk (c : Dev nD) (t : Fin cfg9.N) (a : Fin 5000) (k : Fin 128) (h : 5000 * t.val + a.val < 100000) :
    iblk9 V c 0 t (ix2 a k) = (V c main_v109 : S100000x128.Idx → EReal) (ix2 ⟨5000 * t.val + a.val, h⟩ k) := by
  obtain ⟨e0, e1, -, -, -, -, -⟩ := idx_facts t
  show (V c main_v109 : S100000x128.Idx → EReal) (((cfg9.win 0).blk t).view.emb (ix2 a k)) = _
  refine congrArg (V c main_v109 : S100000x128.Idx → EReal) (funext fun ax => Fin.ext ?_)
  match ax with
  | ⟨0, _⟩ => show win9_0.index t (0 : Fin 2) * 5000 + 1 * a.val = 5000 * t.val + a.val; omega
  | ⟨1, _⟩ => show win9_0.index t (1 : Fin 2) * 128 + 1 * k.val = k.val; omega

/-- The bias row's block at any point: the whole one-row array. -/
theorem rhs_blk (c : Dev nD) (t : Fin cfg9.N) (u : Fin 1) (b : Fin 128) :
    iblk9 V c 1 t (ix2 u b) = (V c main_v110 : S1x128.Idx → EReal) (ix2 u b) := by
  obtain ⟨-, -, e2, e3, -, -, -⟩ := idx_facts t
  show (V c main_v110 : S1x128.Idx → EReal) (((cfg9.win 1).blk t).view.emb (ix2 u b)) = _
  refine congrArg (V c main_v110 : S1x128.Idx → EReal) (funext fun ax => Fin.ext ?_)
  match ax with
  | ⟨0, _⟩ => show win9_1.index t (0 : Fin 2) * 1 + 1 * u.val = u.val; omega
  | ⟨1, _⟩ => show win9_1.index t (1 : Fin 2) * 128 + 1 * b.val = b.val; omega

/-- What point `t` writes back is block `t` of the bias stage applied to the arrays the region finds. -/
theorem flushed_eq (c : Dev nD) (t : Fin cfg9.N) :
    (dat9 V c).flushed 2 t = ((cfg9.win 2).blk t).view.read (Elt Ideal)
      (Cert.Gcn.rowBias (V c main_v109) (V c main_v110)) := by
  show (cfg9.win 2).cut (grid9.coords t) ((dat9 V c).after 2 t) = _
  rw [after9_2]
  unfold out9_2
  rw [View.canon_unit_zero hz]
  simp only [View.ld_unit_zero (S := S5000x128) hz, View.ld_unit_zero (S := S1x128) hz]
  obtain ⟨-, -, -, -, e4, e5, ht⟩ := idx_facts t
  funext j
  obtain ⟨a, b, rfl⟩ : ∃ (a : Fin 5000) (b : Fin 128), j = ix2 a b := ⟨j 0, j 1, eq_ix2 j⟩
  have hrow : 5000 * t.val + a.val < 100000 := by have := a.isLt; omega
  have hemb : ((cfg9.win 2).blk t).view.emb (ix2 a b) = (ix2 ⟨5000 * t.val + a.val, hrow⟩ b : S100000x128.Idx) := by
    funext ax; apply Fin.ext
    match ax with
    | ⟨0, _⟩ => show win9_2.index t (0 : Fin 2) * 5000 + 1 * a.val = 5000 * t.val + a.val; omega
    | ⟨1, _⟩ => show win9_2.index t (1 : Fin 2) * 128 + 1 * b.val = b.val; omega
  show k9_pay1 (iblk9 V c 0 t) (iblk9 V c 1 t) (ix2 a b)
    = Cert.Gcn.rowBias (V c main_v109) (V c main_v110) (((cfg9.win 2).blk t).view.emb (ix2 a b))
  rw [hemb]
  refine (pay_apply (iblk9 V c 0 t) (iblk9 V c 1 t) a b).trans ?_
  rw [lhs_blk V c t a b hrow, rhs_blk V c t 0 b]
  rfl

/-- An index of the output array is in point `t`'s block iff each coordinate is in the block's range on its axis. -/
theorem mem_blk (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v111).slice (win9_2.rect t)).set ↔ _
  rw [View.set_slice_whole, Rect.mem_set_unit]
  exact Iff.rfl

/-- Every index of the output array is in some point's block: row `r` is in block `r / 5000`. -/
theorem covered (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  obtain ⟨t, ht⟩ := idx_onto ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- The output array after the region: the bias stage of the two arrays the region finds. -/
theorem final (c : Dev nD) :
    (dat9 V c).arrAt 2 cfg9.N = Cert.Gcn.rowBias (V c main_v109) (V c main_v110) :=
  (dat9 V c).arrAt_eq_of_cover 2 _ (fun t _ => flushed_eq V c t) covered

end Cert.KernelIdeal.Region9

end
-- ==== Proof.Chain.lean ====
/-
  The idealized kernel program's result, read back through its segments. When the first region is entered the host has
  computed the edges' endpoints (self loops appended) and the normalisation; these and the arguments stay as they are to
  the end. Each layer is then three segments: a region that leaves `x · W` (row block by row block), host operations that
  gather the product's rows along the edges, scale them and add them into the target rows, and put a unit axis in front
  of the bias, and a region that adds the bias row to every row (and takes the maximum with zero, except in the last
  layer). Composing the five layers gives the network of the arguments.
-/
import proofs.«146877_j30399778521459_1_alg».proof.Proof.Keep
import proofs.«146877_j30399778521459_1_alg».proof.Proof.BiasSpec
import proofs.«146877_j30399778521459_1_alg».proof.Proof.Region0
import proofs.«146877_j30399778521459_1_alg».proof.Proof.Region1
import proofs.«146877_j30399778521459_1_alg».proof.Proof.Region2
import proofs.«146877_j30399778521459_1_alg».proof.Proof.Region3
import proofs.«146877_j30399778521459_1_alg».proof.Proof.Region4
import proofs.«146877_j30399778521459_1_alg».proof.Proof.Region5
import proofs.«146877_j30399778521459_1_alg».proof.Proof.Region6
import proofs.«146877_j30399778521459_1_alg».proof.Proof.Region7
import proofs.«146877_j30399778521459_1_alg».proof.Proof.Region8
import proofs.«146877_j30399778521459_1_alg».proof.Proof.Region9
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments when the first region is entered -/

theorem arg0_at3 (c : Dev nD) : W3 m ρ c (Proc.devRef .tc main_arg0) = m ((c : Thread nD τ).loc main_arg0) :=
  ((Keep.at18 m ρ c main_arg0 (by simp [Keep.live] : main_arg0 ∈ Keep.live)).symm).trans (W18_main_arg0 m ρ c)
theorem arg1_at3 (c : Dev nD) : W3 m ρ c (Proc.devRef .tc main_arg1) = m ((c : Thread nD τ).loc main_arg1) :=
  ((Keep.at18 m ρ c main_arg1 (by simp [Keep.live] : main_arg1 ∈ Keep.live)).symm).trans (W18_main_arg1 m ρ c)
theorem arg2_at3 (c : Dev nD) : W3 m ρ c (Proc.devRef .tc main_arg2) = m ((c : Thread nD τ).loc main_arg2) :=
  ((Keep.at18 m ρ c main_arg2 (by simp [Keep.live] : main_arg2 ∈ Keep.live)).symm).trans (W18_main_arg2 m ρ c)
theorem arg3_at3 (c : Dev nD) : W3 m ρ c (Proc.devRef .tc main_arg3) = m ((c : Thread nD τ).loc main_arg3) :=
  ((Keep.at18 m ρ c main_arg3 (by simp [Keep.live] : main_arg3 ∈ Keep.live)).symm).trans (W18_main_arg3 m ρ c)
theorem arg4_at3 (c : Dev nD) : W3 m ρ c (Proc.devRef .tc main_arg4) = m ((c : Thread nD τ).loc main_arg4) :=
  ((Keep.at18 m ρ c main_arg4 (by simp [Keep.live] : main_arg4 ∈ Keep.live)).symm).trans (W18_main_arg4 m ρ c)
theorem arg5_at3 (c : Dev nD) : W3 m ρ c (Proc.devRef .tc main_arg5) = m ((c : Thread nD τ).loc main_arg5) :=
  ((Keep.at18 m ρ c main_arg5 (by simp [Keep.live] : main_arg5 ∈ Keep.live)).symm).trans (W18_main_arg5 m ρ c)
theorem arg6_at3 (c : Dev nD) : W3 m ρ c (Proc.devRef .tc main_arg6) = m ((c : Thread nD τ).loc main_arg6) :=
  ((Keep.at18 m ρ c main_arg6 (by simp [Keep.live] : main_arg6 ∈ Keep.live)).symm).trans (W18_main_arg6 m ρ c)
theorem arg7_at3 (c : Dev nD) : W3 m ρ c (Proc.devRef .tc main_arg7) = m ((c : Thread nD τ).loc main_arg7) :=
  ((Keep.at18 m ρ c main_arg7 (by simp [Keep.live] : main_arg7 ∈ Keep.live)).symm).trans (W18_main_arg7 m ρ c)
theorem arg8_at3 (c : Dev nD) : W3 m ρ c (Proc.devRef .tc main_arg8) = m ((c : Thread nD τ).loc main_arg8) :=
  ((Keep.at18 m ρ c main_arg8 (by simp [Keep.live] : main_arg8 ∈ Keep.live)).symm).trans (W18_main_arg8 m ρ c)
theorem arg9_at3 (c : Dev nD) : W3 m ρ c (Proc.devRef .tc main_arg9) = m ((c : Thread nD τ).loc main_arg9) :=
  ((Keep.at18 m ρ c main_arg9 (by simp [Keep.live] : main_arg9 ∈ Keep.live)).symm).trans (W18_main_arg9 m ρ c)
theorem arg10_at3 (c : Dev nD) : W3 m ρ c (Proc.devRef .tc main_arg10) = m ((c : Thread nD τ).loc main_arg10) :=
  ((Keep.at18 m ρ c main_arg10 (by simp [Keep.live] : main_arg10 ∈ Keep.live)).symm).trans (W18_main_arg10 m ρ c)
theorem arg11_at3 (c : Dev nD) : W3 m ρ c (Proc.devRef .tc main_arg11) = m ((c : Thread nD τ).loc main_arg11) :=
  ((Keep.at18 m ρ c main_arg11 (by simp [Keep.live] : main_arg11 ∈ Keep.live)).symm).trans (W18_main_arg11 m ρ c)
theorem arg12_at3 (c : Dev nD) : W3 m ρ c (Proc.devRef .tc main_arg12) = m ((c : Thread nD τ).loc main_arg12) :=
  ((Keep.at18 m ρ c main_arg12 (by simp [Keep.live] : main_arg12 ∈ Keep.live)).symm).trans (W18_main_arg12 m ρ c)

/-! ## The opening host operations, stretch by stretch

The first stretch splits the edge list into its endpoints, appends the self loops and their unit weights, adds the
weights up by target and takes the inverse square root of the sums; the second selects that root where the sum is
positive and zero elsewhere; the third reads the result at both endpoints of every edge and multiplies. -/

set_option maxHeartbeats 4000000 in
/-- After the first stretch: the source endpoints with the self loops appended, -/
theorem open_row (c : Dev nD) : W1 m ρ c (Proc.devRef .tc main_v5) = Cert.Gcn.rowIdx (F := Ideal) (W0 m ρ c (Proc.devRef .tc main_arg1)) := by
  show StableHlo.after hostOps0 (W0 m ρ c) (Proc.devRef .tc main_v5) = _
  generalize W0 m ρ c = Wv
  after_results_simp
  try rfl

set_option maxHeartbeats 4000000 in
/-- the target endpoints likewise, -/
theorem open_col (c : Dev nD) : W1 m ρ c (Proc.devRef .tc main_v6) = Cert.Gcn.colIdx (F := Ideal) (W0 m ρ c (Proc.devRef .tc main_arg1)) := by
  show StableHlo.after hostOps0 (W0 m ρ c) (Proc.devRef .tc main_v6) = _
  generalize W0 m ρ c = Wv
  after_results_simp
  try rfl

set_option maxHeartbeats 4000000 in
/-- the weights with a one per self loop, -/
theorem open_weights (c : Dev nD) : W1 m ρ c (Proc.devRef .tc main_v8) = Cert.Gcn.weights (F := Ideal) (W0 m ρ c (Proc.devRef .tc main_arg2)) := by
  show StableHlo.after hostOps0 (W0 m ρ c) (Proc.devRef .tc main_v8) = _
  generalize W0 m ρ c = Wv
  after_results_simp
  try rfl

set_option maxHeartbeats 4000000 in
/-- where the weighted in-degree is positive, -/
theorem open_pos (c : Dev nD) : W1 m ρ c (Proc.devRef .tc main_v13) = Cert.Gcn.posDeg (F := Ideal) (Cert.Gcn.colIdx (F := Ideal) (W0 m ρ c (Proc.devRef .tc main_arg1))) (Cert.Gcn.weights (F := Ideal) (W0 m ρ c (Proc.devRef .tc main_arg2))) := by
  show StableHlo.after hostOps0 (W0 m ρ c) (Proc.devRef .tc main_v13) = _
  generalize W0 m ρ c = Wv
  after_results_simp
  try rfl

set_option maxHeartbeats 4000000 in
/-- its inverse square root, -/
theorem open_rsqrt (c : Dev nD) : W1 m ρ c (Proc.devRef .tc main_v14) = Cert.Gcn.rsqrtDeg (F := Ideal) (Cert.Gcn.colIdx (F := Ideal) (W0 m ρ c (Proc.devRef .tc main_arg1))) (Cert.Gcn.weights (F := Ideal) (W0 m ρ c (Proc.devRef .tc main_arg2))) := by
  show StableHlo.after hostOps0 (W0 m ρ c) (Proc.devRef .tc main_v14) = _
  generalize W0 m ρ c = Wv
  after_results_simp
  try rfl

set_option maxHeartbeats 4000000 in
/-- and the scalar zero. -/
theorem open_zero (c : Dev nD) : W1 m ρ c (Proc.devRef .tc main_cst_2) = Cert.Gcn.zeroScalar (F := Ideal) := by
  show StableHlo.after hostOps0 (W0 m ρ c) (Proc.devRef .tc main_cst_2) = _
  generalize W0 m ρ c = Wv
  after_results_simp
  try rfl

set_option maxHeartbeats 4000000 in
/-- After the second stretch: the root where the degree is positive, zero elsewhere; -/
theorem where_dinv (c : Dev nD) : W2 m ρ c (Proc.devRef .tc main_v15) = Cert.Gcn.whereSel (F := Ideal) (W1 m ρ c (Proc.devRef .tc main_v13)) (W1 m ρ c (Proc.devRef .tc main_v14)) (W1 m ρ c (Proc.devRef .tc main_cst_2)) := by
  show StableHlo.after hostOps0_1 (W1 m ρ c) (Proc.devRef .tc main_v15) = _
  generalize W1 m ρ c = Wv
  after_results_simp
  try rfl

set_option maxHeartbeats 4000000 in
/-- the endpoints and the weights are not written. -/
theorem where_row (c : Dev nD) : W2 m ρ c (Proc.devRef .tc main_v5) = (W1 m ρ c (Proc.devRef .tc main_v5)) := by
  show StableHlo.after hostOps0_1 (W1 m ρ c) (Proc.devRef .tc main_v5) = _
  generalize W1 m ρ c = Wv
  after_results_simp
  try rfl

set_option maxHeartbeats 4000000 in
/-- (the target endpoints) -/
theorem where_col (c : Dev nD) : W2 m ρ c (Proc.devRef .tc main_v6) = (W1 m ρ c (Proc.devRef .tc main_v6)) := by
  show StableHlo.after hostOps0_1 (W1 m ρ c) (Proc.devRef .tc main_v6) = _
  generalize W1 m ρ c = Wv
  after_results_simp
  try rfl

set_option maxHeartbeats 4000000 in
/-- (the weights) -/
theorem where_weights (c : Dev nD) : W2 m ρ c (Proc.devRef .tc main_v8) = (W1 m ρ c (Proc.devRef .tc main_v8)) := by
  show StableHlo.after hostOps0_1 (W1 m ρ c) (Proc.devRef .tc main_v8) = _
  generalize W1 m ρ c = Wv
  after_results_simp
  try rfl

set_option maxHeartbeats 4000000 in
/-- After the third stretch: every edge's weight scaled at both endpoints; -/
theorem norm_stage (c : Dev nD) : W3 m ρ c (Proc.devRef .tc main_v31) = Cert.Gcn.normFrom (F := Ideal) (W2 m ρ c (Proc.devRef .tc main_v15)) (W2 m ρ c (Proc.devRef .tc main_v5)) (W2 m ρ c (Proc.devRef .tc main_v6)) (W2 m ρ c (Proc.devRef .tc main_v8)) := by
  show StableHlo.after hostOps0_2 (W2 m ρ c) (Proc.devRef .tc main_v31) = _
  generalize W2 m ρ c = Wv
  after_results_simp
  try rfl

set_option maxHeartbeats 4000000 in
/-- the endpoints are not written. -/
theorem norm_row (c : Dev nD) : W3 m ρ c (Proc.devRef .tc main_v5) = (W2 m ρ c (Proc.devRef .tc main_v5)) := by
  show StableHlo.after hostOps0_2 (W2 m ρ c) (Proc.devRef .tc main_v5) = _
  generalize W2 m ρ c = Wv
  after_results_simp
  try rfl

set_option maxHeartbeats 4000000 in
/-- (the target endpoints) -/
theorem norm_col (c : Dev nD) : W3 m ρ c (Proc.devRef .tc main_v6) = (W2 m ρ c (Proc.devRef .tc main_v6)) := by
  show StableHlo.after hostOps0_2 (W2 m ρ c) (Proc.devRef .tc main_v6) = _
  generalize W2 m ρ c = Wv
  after_results_simp
  try rfl

/-- The source endpoints with the self loops appended, when the first region is entered. -/
theorem pre_row (c : Dev nD) : W3 m ρ c (Proc.devRef .tc main_v5) = Cert.Gcn.rowIdx (F := Ideal) (m ((c : Thread nD τ).loc main_arg1)) := by
  rw [norm_row m ρ c, where_row m ρ c, open_row m ρ c]

/-- The target endpoints with the self loops appended. -/
theorem pre_col (c : Dev nD) : W3 m ρ c (Proc.devRef .tc main_v6) = Cert.Gcn.colIdx (F := Ideal) (m ((c : Thread nD τ).loc main_arg1)) := by
  rw [norm_col m ρ c, where_col m ρ c, open_col m ρ c]

/-- The normalisation of every edge. -/
theorem pre_norm (c : Dev nD) : W3 m ρ c (Proc.devRef .tc main_v31) = Cert.Gcn.edgeNorm (F := Ideal) (m ((c : Thread nD τ).loc main_arg1)) (m ((c : Thread nD τ).loc main_arg2)) := by
  rw [norm_stage m ρ c, where_dinv m ρ c, where_row m ρ c, where_col m ρ c, where_weights m ρ c,
    open_pos m ρ c, open_rsqrt m ρ c, open_zero m ρ c, open_row m ρ c, open_col m ρ c, open_weights m ρ c]
  rfl

/-! ## Layer 1 -/

/-- The dense stage's region leaves the product of its input and the layer's weights. -/
theorem dense1 (c : Dev nD) : W4 m ρ c (Proc.devRef .tc main_v32) = Cert.Gcn.dense (F := Ideal) (W3 m ρ c (Proc.devRef .tc main_arg0)) (W3 m ρ c (Proc.devRef .tc main_arg3)) := by
  refine ((W4_arr m ρ c 2).trans (Region0.final (V3 m ρ) c)).trans ?_
  show Cert.Gcn.dense (F := Ideal) (W3 m ρ c (Proc.devRef .tc main_arg0)) (W3 m ρ c (Proc.devRef .tc main_arg3)) = _
  rfl

set_option maxHeartbeats 4000000 in
/-- The host operations after it gather, scale and add the product's rows along the edges, -/
theorem agg1_here (c : Dev nD) : W5 m ρ c (Proc.devRef .tc main_v45)
    = Cert.Gcn.propagate (F := Ideal) (W4 m ρ c (Proc.devRef .tc main_v32)) (W4 m ρ c (Proc.devRef .tc main_v5)) (W4 m ρ c (Proc.devRef .tc main_v6)) (W4 m ρ c (Proc.devRef .tc main_v31)) := by
  show StableHlo.after hostOps1 (W4 m ρ c) (Proc.devRef .tc main_v45) = _
  generalize W4 m ρ c = Wv
  after_results
  rfl

/-- with the endpoints and the normalisation as the first region found them, -/
theorem agg1 (c : Dev nD) : W5 m ρ c (Proc.devRef .tc main_v45)
    = Cert.Gcn.propagate (F := Ideal) (W4 m ρ c (Proc.devRef .tc main_v32)) (W3 m ρ c (Proc.devRef .tc main_v5)) (W3 m ρ c (Proc.devRef .tc main_v6)) (W3 m ρ c (Proc.devRef .tc main_v31)) := by
  rw [agg1_here m ρ c, Keep.at4 m ρ c main_v5 (by simp [Keep.live] : main_v5 ∈ Keep.live), Keep.at4 m ρ c main_v6 (by simp [Keep.live] : main_v6 ∈ Keep.live), Keep.at4 m ρ c main_v31 (by simp [Keep.live] : main_v31 ∈ Keep.live)]

set_option maxHeartbeats 4000000 in
/-- and put a unit axis in front of the bias. -/
theorem bias1_here (c : Dev nD) : W5 m ρ c (Proc.devRef .tc main_v46)
    = shapeCast S1x128 (W4 m ρ c (Proc.devRef .tc main_arg4)) shapeCasts_S128_S1x128 := by
  show StableHlo.after hostOps1 (W4 m ρ c) (Proc.devRef .tc main_v46) = _
  generalize W4 m ρ c = Wv
  after_results
  try rfl

theorem bias1 (c : Dev nD) : W5 m ρ c (Proc.devRef .tc main_v46)
    = shapeCast S1x128 (W3 m ρ c (Proc.devRef .tc main_arg4)) shapeCasts_S128_S1x128 := by
  rw [bias1_here m ρ c, Keep.at4 m ρ c main_arg4 (by simp [Keep.live] : main_arg4 ∈ Keep.live)]

/-- The bias region then leaves the layer's output. -/
theorem layer1 (c : Dev nD) : W6 m ρ c (Proc.devRef .tc main_v47)
    = Cert.Gcn.layer (F := Ideal) (W3 m ρ c (Proc.devRef .tc main_arg0)) (W3 m ρ c (Proc.devRef .tc main_arg3)) (W3 m ρ c (Proc.devRef .tc main_arg4)) (W3 m ρ c (Proc.devRef .tc main_v5)) (W3 m ρ c (Proc.devRef .tc main_v6)) (W3 m ρ c (Proc.devRef .tc main_v31)) := by
  refine ((W6_arr m ρ c 2).trans (Region1.final (V5 m ρ) c)).trans ?_
  show Cert.Gcn.rowBiasRelu (W5 m ρ c (Proc.devRef .tc main_v45)) (W5 m ρ c (Proc.devRef .tc main_v46)) = _
  rw [agg1 m ρ c, bias1 m ρ c, dense1 m ρ c]
  exact (Cert.Gcn.relu_addBias_eq _ _ _).symm

/-! ## Layer 2 -/

/-- The dense stage's region leaves the product of its input and the layer's weights. -/
theorem dense2 (c : Dev nD) : W7 m ρ c (Proc.devRef .tc main_v48) = Cert.Gcn.dense (F := Ideal) (W6 m ρ c (Proc.devRef .tc main_v47)) (W3 m ρ c (Proc.devRef .tc main_arg5)) := by
  refine ((W7_arr m ρ c 2).trans (Region2.final (V6 m ρ) c)).trans ?_
  show Cert.Gcn.dense (F := Ideal) (W6 m ρ c (Proc.devRef .tc main_v47)) (W6 m ρ c (Proc.devRef .tc main_arg5)) = _
  rw [Keep.at6 m ρ c main_arg5 (by simp [Keep.live] : main_arg5 ∈ Keep.live)]

set_option maxHeartbeats 4000000 in
/-- The host operations after it gather, scale and add the product's rows along the edges, -/
theorem agg2_here (c : Dev nD) : W8 m ρ c (Proc.devRef .tc main_v61)
    = Cert.Gcn.propagate (F := Ideal) (W7 m ρ c (Proc.devRef .tc main_v48)) (W7 m ρ c (Proc.devRef .tc main_v5)) (W7 m ρ c (Proc.devRef .tc main_v6)) (W7 m ρ c (Proc.devRef .tc main_v31)) := by
  show StableHlo.after hostOps3 (W7 m ρ c) (Proc.devRef .tc main_v61) = _
  generalize W7 m ρ c = Wv
  after_results
  rfl

/-- with the endpoints and the normalisation as the first region found them, -/
theorem agg2 (c : Dev nD) : W8 m ρ c (Proc.devRef .tc main_v61)
    = Cert.Gcn.propagate (F := Ideal) (W7 m ρ c (Proc.devRef .tc main_v48)) (W3 m ρ c (Proc.devRef .tc main_v5)) (W3 m ρ c (Proc.devRef .tc main_v6)) (W3 m ρ c (Proc.devRef .tc main_v31)) := by
  rw [agg2_here m ρ c, Keep.at7 m ρ c main_v5 (by simp [Keep.live] : main_v5 ∈ Keep.live), Keep.at7 m ρ c main_v6 (by simp [Keep.live] : main_v6 ∈ Keep.live), Keep.at7 m ρ c main_v31 (by simp [Keep.live] : main_v31 ∈ Keep.live)]

set_option maxHeartbeats 4000000 in
/-- and put a unit axis in front of the bias. -/
theorem bias2_here (c : Dev nD) : W8 m ρ c (Proc.devRef .tc main_v62)
    = shapeCast S1x128 (W7 m ρ c (Proc.devRef .tc main_arg6)) shapeCasts_S128_S1x128 := by
  show StableHlo.after hostOps3 (W7 m ρ c) (Proc.devRef .tc main_v62) = _
  generalize W7 m ρ c = Wv
  after_results
  try rfl

theorem bias2 (c : Dev nD) : W8 m ρ c (Proc.devRef .tc main_v62)
    = shapeCast S1x128 (W3 m ρ c (Proc.devRef .tc main_arg6)) shapeCasts_S128_S1x128 := by
  rw [bias2_here m ρ c, Keep.at7 m ρ c main_arg6 (by simp [Keep.live] : main_arg6 ∈ Keep.live)]

/-- The bias region then leaves the layer's output. -/
theorem layer2 (c : Dev nD) : W9 m ρ c (Proc.devRef .tc main_v63)
    = Cert.Gcn.layer (F := Ideal) (W6 m ρ c (Proc.devRef .tc main_v47)) (W3 m ρ c (Proc.devRef .tc main_arg5)) (W3 m ρ c (Proc.devRef .tc main_arg6)) (W3 m ρ c (Proc.devRef .tc main_v5)) (W3 m ρ c (Proc.devRef .tc main_v6)) (W3 m ρ c (Proc.devRef .tc main_v31)) := by
  refine ((W9_arr m ρ c 2).trans (Region3.final (V8 m ρ) c)).trans ?_
  show Cert.Gcn.rowBiasRelu (W8 m ρ c (Proc.devRef .tc main_v61)) (W8 m ρ c (Proc.devRef .tc main_v62)) = _
  rw [agg2 m ρ c, bias2 m ρ c, dense2 m ρ c]
  exact (Cert.Gcn.relu_addBias_eq _ _ _).symm

/-! ## Layer 3 -/

/-- The dense stage's region leaves the product of its input and the layer's weights. -/
theorem dense3 (c : Dev nD) : W10 m ρ c (Proc.devRef .tc main_v64) = Cert.Gcn.dense (F := Ideal) (W9 m ρ c (Proc.devRef .tc main_v63)) (W3 m ρ c (Proc.devRef .tc main_arg7)) := by
  refine ((W10_arr m ρ c 2).trans (Region4.final (V9 m ρ) c)).trans ?_
  show Cert.Gcn.dense (F := Ideal) (W9 m ρ c (Proc.devRef .tc main_v63)) (W9 m ρ c (Proc.devRef .tc main_arg7)) = _
  rw [Keep.at9 m ρ c main_arg7 (by simp [Keep.live] : main_arg7 ∈ Keep.live)]

set_option maxHeartbeats 4000000 in
/-- The host operations after it gather, scale and add the product's rows along the edges, -/
theorem agg3_here (c : Dev nD) : W11 m ρ c (Proc.devRef .tc main_v77)
    = Cert.Gcn.propagate (F := Ideal) (W10 m ρ c (Proc.devRef .tc main_v64)) (W10 m ρ c (Proc.devRef .tc main_v5)) (W10 m ρ c (Proc.devRef .tc main_v6)) (W10 m ρ c (Proc.devRef .tc main_v31)) := by
  show StableHlo.after hostOps5 (W10 m ρ c) (Proc.devRef .tc main_v77) = _
  generalize W10 m ρ c = Wv
  after_results
  rfl

/-- with the endpoints and the normalisation as the first region found them, -/
theorem agg3 (c : Dev nD) : W11 m ρ c (Proc.devRef .tc main_v77)
    = Cert.Gcn.propagate (F := Ideal) (W10 m ρ c (Proc.devRef .tc main_v64)) (W3 m ρ c (Proc.devRef .tc main_v5)) (W3 m ρ c (Proc.devRef .tc main_v6)) (W3 m ρ c (Proc.devRef .tc main_v31)) := by
  rw [agg3_here m ρ c, Keep.at10 m ρ c main_v5 (by simp [Keep.live] : main_v5 ∈ Keep.live), Keep.at10 m ρ c main_v6 (by simp [Keep.live] : main_v6 ∈ Keep.live), Keep.at10 m ρ c main_v31 (by simp [Keep.live] : main_v31 ∈ Keep.live)]

set_option maxHeartbeats 4000000 in
/-- and put a unit axis in front of the bias. -/
theorem bias3_here (c : Dev nD) : W11 m ρ c (Proc.devRef .tc main_v78)
    = shapeCast S1x128 (W10 m ρ c (Proc.devRef .tc main_arg8)) shapeCasts_S128_S1x128 := by
  show StableHlo.after hostOps5 (W10 m ρ c) (Proc.devRef .tc main_v78) = _
  generalize W10 m ρ c = Wv
  after_results
  try rfl

theorem bias3 (c : Dev nD) : W11 m ρ c (Proc.devRef .tc main_v78)
    = shapeCast S1x128 (W3 m ρ c (Proc.devRef .tc main_arg8)) shapeCasts_S128_S1x128 := by
  rw [bias3_here m ρ c, Keep.at10 m ρ c main_arg8 (by simp [Keep.live] : main_arg8 ∈ Keep.live)]

/-- The bias region then leaves the layer's output. -/
theorem layer3 (c : Dev nD) : W12 m ρ c (Proc.devRef .tc main_v79)
    = Cert.Gcn.layer (F := Ideal) (W9 m ρ c (Proc.devRef .tc main_v63)) (W3 m ρ c (Proc.devRef .tc main_arg7)) (W3 m ρ c (Proc.devRef .tc main_arg8)) (W3 m ρ c (Proc.devRef .tc main_v5)) (W3 m ρ c (Proc.devRef .tc main_v6)) (W3 m ρ c (Proc.devRef .tc main_v31)) := by
  refine ((W12_arr m ρ c 2).trans (Region5.final (V11 m ρ) c)).trans ?_
  show Cert.Gcn.rowBiasRelu (W11 m ρ c (Proc.devRef .tc main_v77)) (W11 m ρ c (Proc.devRef .tc main_v78)) = _
  rw [agg3 m ρ c, bias3 m ρ c, dense3 m ρ c]
  exact (Cert.Gcn.relu_addBias_eq _ _ _).symm

/-! ## Layer 4 -/

/-- The dense stage's region leaves the product of its input and the layer's weights. -/
theorem dense4 (c : Dev nD) : W13 m ρ c (Proc.devRef .tc main_v80) = Cert.Gcn.dense (F := Ideal) (W12 m ρ c (Proc.devRef .tc main_v79)) (W3 m ρ c (Proc.devRef .tc main_arg9)) := by
  refine ((W13_arr m ρ c 2).trans (Region6.final (V12 m ρ) c)).trans ?_
  show Cert.Gcn.dense (F := Ideal) (W12 m ρ c (Proc.devRef .tc main_v79)) (W12 m ρ c (Proc.devRef .tc main_arg9)) = _
  rw [Keep.at12 m ρ c main_arg9 (by simp [Keep.live] : main_arg9 ∈ Keep.live)]

set_option maxHeartbeats 4000000 in
/-- The host operations after it gather, scale and add the product's rows along the edges, -/
theorem agg4_here (c : Dev nD) : W14 m ρ c (Proc.devRef .tc main_v93)
    = Cert.Gcn.propagate (F := Ideal) (W13 m ρ c (Proc.devRef .tc main_v80)) (W13 m ρ c (Proc.devRef .tc main_v5)) (W13 m ρ c (Proc.devRef .tc main_v6)) (W13 m ρ c (Proc.devRef .tc main_v31)) := by
  show StableHlo.after hostOps7 (W13 m ρ c) (Proc.devRef .tc main_v93) = _
  generalize W13 m ρ c = Wv
  after_results
  rfl

/-- with the endpoints and the normalisation as the first region found them, -/
theorem agg4 (c : Dev nD) : W14 m ρ c (Proc.devRef .tc main_v93)
    = Cert.Gcn.propagate (F := Ideal) (W13 m ρ c (Proc.devRef .tc main_v80)) (W3 m ρ c (Proc.devRef .tc main_v5)) (W3 m ρ c (Proc.devRef .tc main_v6)) (W3 m ρ c (Proc.devRef .tc main_v31)) := by
  rw [agg4_here m ρ c, Keep.at13 m ρ c main_v5 (by simp [Keep.live] : main_v5 ∈ Keep.live), Keep.at13 m ρ c main_v6 (by simp [Keep.live] : main_v6 ∈ Keep.live), Keep.at13 m ρ c main_v31 (by simp [Keep.live] : main_v31 ∈ Keep.live)]

set_option maxHeartbeats 4000000 in
/-- and put a unit axis in front of the bias. -/
theorem bias4_here (c : Dev nD) : W14 m ρ c (Proc.devRef .tc main_v94)
    = shapeCast S1x128 (W13 m ρ c (Proc.devRef .tc main_arg10)) shapeCasts_S128_S1x128 := by
  show StableHlo.after hostOps7 (W13 m ρ c) (Proc.devRef .tc main_v94) = _
  generalize W13 m ρ c = Wv
  after_results
  try rfl

theorem bias4 (c : Dev nD) : W14 m ρ c (Proc.devRef .tc main_v94)
    = shapeCast S1x128 (W3 m ρ c (Proc.devRef .tc main_arg10)) shapeCasts_S128_S1x128 := by
  rw [bias4_here m ρ c, Keep.at13 m ρ c main_arg10 (by simp [Keep.live] : main_arg10 ∈ Keep.live)]

/-- The bias region then leaves the layer's output. -/
theorem layer4 (c : Dev nD) : W15 m ρ c (Proc.devRef .tc main_v95)
    = Cert.Gcn.layer (F := Ideal) (W12 m ρ c (Proc.devRef .tc main_v79)) (W3 m ρ c (Proc.devRef .tc main_arg9)) (W3 m ρ c (Proc.devRef .tc main_arg10)) (W3 m ρ c (Proc.devRef .tc main_v5)) (W3 m ρ c (Proc.devRef .tc main_v6)) (W3 m ρ c (Proc.devRef .tc main_v31)) := by
  refine ((W15_arr m ρ c 2).trans (Region7.final (V14 m ρ) c)).trans ?_
  show Cert.Gcn.rowBiasRelu (W14 m ρ c (Proc.devRef .tc main_v93)) (W14 m ρ c (Proc.devRef .tc main_v94)) = _
  rw [agg4 m ρ c, bias4 m ρ c, dense4 m ρ c]
  exact (Cert.Gcn.relu_addBias_eq _ _ _).symm

/-! ## Layer 5 -/

/-- The dense stage's region leaves the product of its input and the layer's weights. -/
theorem dense5 (c : Dev nD) : W16 m ρ c (Proc.devRef .tc main_v96) = Cert.Gcn.dense (F := Ideal) (W15 m ρ c (Proc.devRef .tc main_v95)) (W3 m ρ c (Proc.devRef .tc main_arg11)) := by
  refine ((W16_arr m ρ c 2).trans (Region8.final (V15 m ρ) c)).trans ?_
  show Cert.Gcn.dense (F := Ideal) (W15 m ρ c (Proc.devRef .tc main_v95)) (W15 m ρ c (Proc.devRef .tc main_arg11)) = _
  rw [Keep.at15 m ρ c main_arg11 (by simp [Keep.live] : main_arg11 ∈ Keep.live)]

set_option maxHeartbeats 4000000 in
/-- The host operations after it gather, scale and add the product's rows along the edges, -/
theorem agg5_here (c : Dev nD) : W17 m ρ c (Proc.devRef .tc main_v109)
    = Cert.Gcn.propagate (F := Ideal) (W16 m ρ c (Proc.devRef .tc main_v96)) (W16 m ρ c (Proc.devRef .tc main_v5)) (W16 m ρ c (Proc.devRef .tc main_v6)) (W16 m ρ c (Proc.devRef .tc main_v31)) := by
  show StableHlo.after hostOps9 (W16 m ρ c) (Proc.devRef .tc main_v109) = _
  generalize W16 m ρ c = Wv
  after_results
  rfl

/-- with the endpoints and the normalisation as the first region found them, -/
theorem agg5 (c : Dev nD) : W17 m ρ c (Proc.devRef .tc main_v109)
    = Cert.Gcn.propagate (F := Ideal) (W16 m ρ c (Proc.devRef .tc main_v96)) (W3 m ρ c (Proc.devRef .tc main_v5)) (W3 m ρ c (Proc.devRef .tc main_v6)) (W3 m ρ c (Proc.devRef .tc main_v31)) := by
  rw [agg5_here m ρ c, Keep.at16 m ρ c main_v5 (by simp [Keep.live] : main_v5 ∈ Keep.live), Keep.at16 m ρ c main_v6 (by simp [Keep.live] : main_v6 ∈ Keep.live), Keep.at16 m ρ c main_v31 (by simp [Keep.live] : main_v31 ∈ Keep.live)]

set_option maxHeartbeats 4000000 in
/-- and put a unit axis in front of the bias. -/
theorem bias5_here (c : Dev nD) : W17 m ρ c (Proc.devRef .tc main_v110)
    = shapeCast S1x128 (W16 m ρ c (Proc.devRef .tc main_arg12)) shapeCasts_S128_S1x128 := by
  show StableHlo.after hostOps9 (W16 m ρ c) (Proc.devRef .tc main_v110) = _
  generalize W16 m ρ c = Wv
  after_results
  try rfl

theorem bias5 (c : Dev nD) : W17 m ρ c (Proc.devRef .tc main_v110)
    = shapeCast S1x128 (W3 m ρ c (Proc.devRef .tc main_arg12)) shapeCasts_S128_S1x128 := by
  rw [bias5_here m ρ c, Keep.at16 m ρ c main_arg12 (by simp [Keep.live] : main_arg12 ∈ Keep.live)]

/-- The bias region then leaves the layer's output. -/
theorem layer5 (c : Dev nD) : W18 m ρ c (Proc.devRef .tc main_v111)
    = Cert.Gcn.outLayer (F := Ideal) (W15 m ρ c (Proc.devRef .tc main_v95)) (W3 m ρ c (Proc.devRef .tc main_arg11)) (W3 m ρ c (Proc.devRef .tc main_arg12)) (W3 m ρ c (Proc.devRef .tc main_v5)) (W3 m ρ c (Proc.devRef .tc main_v6)) (W3 m ρ c (Proc.devRef .tc main_v31)) := by
  refine ((W18_arr m ρ c 2).trans (Region9.final (V17 m ρ) c)).trans ?_
  show Cert.Gcn.rowBias (W17 m ρ c (Proc.devRef .tc main_v109)) (W17 m ρ c (Proc.devRef .tc main_v110)) = _
  rw [agg5 m ρ c, bias5 m ρ c, dense5 m ρ c]
  exact (Cert.Gcn.addBias_eq _ _ _).symm

/-! ## The five layers composed -/

/-- The result buffer at the last boundary is the network of the launch contents of the arguments. -/
theorem result (c : Dev nD) : W18 m ρ c (Proc.devRef .tc main_v111)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [layer5 m ρ c, layer4 m ρ c, layer3 m ρ c, layer2 m ρ c, layer1 m ρ c,
    pre_row m ρ c, pre_col m ρ c, pre_norm m ρ c,
    arg0_at3 m ρ c, arg3_at3 m ρ c, arg4_at3 m ρ c, arg5_at3 m ρ c, arg6_at3 m ρ c, arg7_at3 m ρ c, arg8_at3 m ρ c, arg9_at3 m ρ c, arg10_at3 m ρ c, arg11_at3 m ρ c, arg12_at3 m ρ c]
  rfl

end Cert.KernelIdeal.Chain

end
-- ==== Proof.RefNet.lean ====
/-
  The reference program's result is the network of its arguments: the run's composed term, read stage by stage, is the
  five layers over the edge list's endpoints and normalisation, each stage the operation the program applies.
-/
import proofs.«146877_j30399778521459_1_alg».proof.Proof.Gen.ReferenceIdeal.Run
import proofs.«146877_j30399778521459_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 16384 in
/-- The run's result term is the network of the launch contents of the thirteen arguments. -/
theorem res_eq_net (m : (ℓ : Loc nD τ sig) → Buf (Elt F) ℓ) (c : Dev nD) :
    res_main_v120 m c = Cert.Gcn.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v120 Cert.Gcn.net Cert.Gcn.layers Cert.Gcn.outLayer Cert.Gcn.layer Cert.Gcn.relu Cert.Gcn.addBias
    Cert.Gcn.propagate Cert.Gcn.dense Cert.Gcn.edgeNorm Cert.Gcn.normFrom Cert.Gcn.invSqrtDeg Cert.Gcn.whereSel Cert.Gcn.posDeg Cert.Gcn.rsqrtDeg Cert.Gcn.zeroScalar Cert.Gcn.degree
    Cert.Gcn.weights Cert.Gcn.rowIdx Cert.Gcn.colIdx
  rfl

end Cert.ReferenceIdeal.RefValue

end
-- ==== Proof.lean ====
/-
  A five-layer graph convolution network over 100000 nodes and 1600000 weighted edges, computed by a program of ten
  kernel regions (per layer: a row-blocked matrix product and a row-blocked bias, with max(·, 0) in the hidden layers)
  among host operations (the edge normalisation; per layer the gather of the product's rows along the edges, their
  scaling and their sum into the target rows), against the same network written with whole-array operations.

  Over the extended reals the two programs compute one function of their arguments. They apply the same operations in
  the same order; they differ only in that the kernel forms `x · W` and `· + b` twenty row blocks at a time (each block
  of the product depends on that block's rows of `x` only, and the blocks tile the rows), narrows the operands of the
  product to a shorter float format (the identity on extended reals), and receives the bias as a one-row array whose row
  it adds to every row, where the reference broadcasts the bias to the full shape. No algebraic law beyond the
  reading of a matrix product as a sum over the contracted coordinate is used, so the precondition is never opened.

  The kernel side: the regions' frame run with the result buffer named (KRun), each region's output array as one
  whole-array function of the arrays the region finds (Region0 … Region9), what stays untouched between regions (Keep),
  and the walk through the segments (Chain). The reference side: its run's result term is the network (RefNet).
-/
import proofs.«146877_j30399778521459_1_alg».proof.Defs
import proofs.«146877_j30399778521459_1_alg».proof.Proof.Gen.Kernel
import proofs.«146877_j30399778521459_1_alg».proof.Proof.Gen.Kernel.Frame
import proofs.«146877_j30399778521459_1_alg».proof.Proof.Gen.KernelIdeal
import proofs.«146877_j30399778521459_1_alg».proof.Proof.Gen.KernelIdeal.Frame
import proofs.«146877_j30399778521459_1_alg».proof.Proof.Gen.ReferenceIdeal
import proofs.«146877_j30399778521459_1_alg».proof.Proof.Gen.ReferenceIdeal.Run
import proofs.«146877_j30399778521459_1_alg».proof.Proof.Gen.Pre_finite_inputs
import proofs.«146877_j30399778521459_1_alg».proof.Proof.KRun
import proofs.«146877_j30399778521459_1_alg».proof.Proof.Chain
import proofs.«146877_j30399778521459_1_alg».proof.Proof.RefNet

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result buffer. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Chain.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
